-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x128 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S128x512 .f32) (main_arg3 : FVec F S128 .f32) (main_arg4 : FVec F S64x128 .f32) (main_arg5 : FVec F S64 .f32) (main_arg6 : FVec F S64x128 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S2000x512 : Shape := ⟨2, ![2000, 512]⟩
abbrev S2000x1 : Shape := ⟨2, ![2000, 1]⟩
abbrev S2000x128 : Shape := ⟨2, ![2000, 128]⟩
abbrev S850000x128 : Shape := ⟨2, ![850000, 128]⟩
abbrev S1x128 : Shape := ⟨2, ![1, 128]⟩
abbrev S128x128 : Shape := ⟨2, ![128, 128]⟩
abbrev S50000x64 : Shape := ⟨2, ![50000, 64]⟩
abbrev S1x64 : Shape := ⟨2, ![1, 64]⟩

abbrev nBuf : Space → Nat
  | .hbm => 77
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S128x512, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S128x128, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S128x512, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S64x128_S64x128_S128x128_d0 : Shape.Concatenates [S64x128, S64x128] S128x128 0
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x64_0_0 : S50000x128.Slices ![0, 0] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x128_S50000x64_0_64 : S50000x128.Slices ![0, 64] S50000x64
  scatter_S50000_S850000x1_S850000_n_0_0_1_wf : ScatterDims.WF S50000 S850000x1 S850000 [] [0] [0] 1
  dot_S2000x512_S128x512_S2000x128_1_1_0_0_n_n_wf : DotDims.WF S2000x512 S128x512 S2000x128 [1] [1] [0] [0] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x512_S128x512_S2000x128_1_1_0_0_n_n : DotDims S2000x512 S128x512 S2000x128 where
  lhsContracting := [1]
  rhsContracting := [1]
  lhsNonContracting := [0]
  rhsNonContracting := [0]
  lhsBatch := []
  rhsBatch := []
  wf := dot_S2000x512_S128x512_S2000x128_1_1_0_0_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S512x128 : Shape := ⟨2, ![512, 128]⟩
abbrev S50000x128 : Shape := ⟨2, ![50000, 128]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 186
  | .vmem => 0
  | .smem => 0
  | _ => 0

abbrev hbmTy0_0 (i : Nat) : BufTy := match i % 128 with
  | 0 => ⟨S50000x512, .f32⟩
  | 1 => ⟨S2x800000, .i32⟩
  | 2 => ⟨S128x512, .f32⟩
  | 3 => ⟨S128, .f32⟩
  | 4 => ⟨S64x128, .f32⟩
  | 5 => ⟨S64, .f32⟩
  | 6 => ⟨S64x128, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S512x128, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S128x64, .f32⟩
  | 109 => ⟨S50000x64, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x512, .f32⟩

abbrev hbmTy0_1 (i : Nat) : BufTy := match i % 128 with
  | 0 => ⟨S50000x64, .f32⟩
  | 1 => ⟨S50000, .i32⟩
  | 2 => ⟨S850000, .i32⟩
  | 3 => ⟨S850000, .i32⟩
  | 4 => ⟨S_, .f32⟩
  | 5 => ⟨S850000, .f32⟩
  | 6 => ⟨S_, .f32⟩
  | 7 => ⟨S50000, .f32⟩
  | 8 => ⟨S850000x1, .i32⟩
  | 9 => ⟨S50000, .f32⟩
  | 10 => ⟨S_, .f32⟩
  | 11 => ⟨S50000, .f32⟩
  | 12 => ⟨S50000, .i1⟩
  | 13 => ⟨S50000, .f32⟩
  | 14 => ⟨S_, .f32⟩
  | 15 => ⟨S_, .f32⟩
  | 16 => ⟨S50000, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S850000, .f32⟩
  | 37 => ⟨S128x64, .f32⟩
  | 38 => ⟨S50000x64, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x64, .f32⟩
  | 48 => ⟨S850000x1, .f32⟩
  | 49 => ⟨S850000x64, .f32⟩
  | 50 => ⟨S850000x64, .f32⟩
  | 51 => ⟨S_, .f32⟩
  | 52 => ⟨S50000x64, .f32⟩
  | 53 => ⟨S850000x1, .i32⟩
  | 54 => ⟨S50000x64, .f32⟩
  | 55 => ⟨S1x64, .f32⟩
  | 56 => ⟨S50000x64, .f32⟩
  | 57 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_cst_21 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_22 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_23 : Ref sig .tc := ⟨.hbm, 142, rfl⟩
abbrev main_call3_v0 : Ref sig .tc := ⟨.hbm, 143, rfl⟩
abbrev main_call3_v1 : Ref sig .tc := ⟨.hbm, 144, rfl⟩
abbrev main_v103 : Ref sig .tc := ⟨.hbm, 145, rfl⟩
abbrev main_c_24 : Ref sig .tc := ⟨.hbm, 146, rfl⟩
abbrev main_v104 : Ref sig .tc := ⟨.hbm, 147, rfl⟩
abbrev main_v105 : Ref sig .tc := ⟨.hbm, 148, rfl⟩
abbrev main_c_25 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_26 : Ref sig .tc := ⟨.hbm, 155, rfl⟩
abbrev main_v111 : Ref sig .tc := ⟨.hbm, 156, rfl⟩
abbrev main_v112 : Ref sig .tc := ⟨.hbm, 157, rfl⟩
abbrev main_c_27 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_c_28 : Ref sig .tc := ⟨.hbm, 167, rfl⟩
abbrev main_v121 : Ref sig .tc := ⟨.hbm, 168, rfl⟩
abbrev main_v122 : Ref sig .tc := ⟨.hbm, 169, rfl⟩
abbrev main_c_29 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_30 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x512_S512x128_1_0 : S128x512.Transposes [1, 0] S512x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.Spec.lean ====
/-
  The mathematics of the two programs, index by index, over the extended reals.

  A graph of 50000 nodes has 850000 edges (800000 given ones and one self loop per node), each a pair of 32-bit index
  words `(src2 e, dst2 e)`. An edge is summed INTO node `j` when its receiving word, read signed, is exactly `j`
  (`into`); the row it READS is its sending word, a negative one moved up by 50000, clamped into the node range
  (`srcNode`). A node's degree is the number of edges into it (as a sum of ones), and its scale `dinv` is the inverse
  square root of a positive degree and zero otherwise.

  One layer takes an array `P` of node rows. The kernel scales row `i` by `dinv i` first, sums the rows the edges
  into `j` read, and scales the sum by `dinv j` (`kerAgg`); the reference sums the rows each multiplied by
  `dinv (source) * dinv (receiver)`, the receiver's scale read through the same clamped look-up (`refAgg`). For an edge
  into `j` that look-up is `j` itself, and on finite values the common factor `dinv j` moves out of the sum.
-/
import Idealize.ShloMosaic.PureOps.Ideal
import Idealize.ShloMosaic.PureOps.Ideal.Laws
import Idealize.ShloMosaic.Lib.ValueIdx
import proofs.«124000_j5858335392034_2_alg».proof.Proof.LibFinite
import proofs.«124000_j5858335392034_2_alg».proof.Proof.LibRowOps

noncomputable section

open scoped BigOperators

namespace Cert.Gcn

open Idealize.ShloMosaic Idealize.ShloMosaic.ValueIdx Cert.Finite Cert.RowOps

/-- The number of nodes. -/
abbrev Nn : Nat := 50000
/-- The number of edges, self loops included. -/
abbrev Ne : Nat := 850000
theorem Nn_pos : 0 < Nn := by decide

/-- The shape of an edge-indexed array of words. -/
abbrev SE : Shape := ⟨1, ![850000]⟩

/-- An index word, moved up by the number of nodes when it is negative (numpy's reading of a negative index). -/
def wrap (w : BitVec 32) : BitVec 32 := Scalar.select (IntOp.cmpi .slt w 0#32) (IntOp.addi w 50000#32) w

/-- The node whose row edge `e` reads. -/
def srcNode (src2 : IVec SE 32) (e : Fin Ne) : Fin Nn := gatherRow Nn Nn_pos (wrap (src2 (ix1 e)))

/-- The node whose scale the reference looks up for the receiving end of edge `e`. -/
def dstNode (dst2 : IVec SE 32) (e : Fin Ne) : Fin Nn := gatherRow Nn Nn_pos (wrap (dst2 (ix1 e)))

/-- The edges summed into node `j`: those whose receiving word, read signed, is exactly `j`. -/
def into (dst2 : IVec SE 32) (j : Fin Nn) : Finset (Fin Ne) :=
  Finset.univ.filter fun e => scatterRow Nn (dst2 (ix1 e)) = some j

/-- The float one. -/
def oneF : EReal := Ideal.ofBits .f32 0x3F800000#32

/-- A node's degree: one for each edge into it. -/
def deg (dst2 : IVec SE 32) (j : Fin Nn) : EReal := ∑ _e ∈ into dst2 j, oneF

/-- A node's scale: the inverse square root of a positive degree, zero otherwise. -/
def dinv (dst2 : IVec SE 32) (j : Fin Nn) : EReal :=
  Scalar.select (FloatOps.cmpf (F := Ideal) .ogt (deg dst2 j : Ideal .f32) (0 : Ideal .f32))
    (FloatOps.hostUnary (F := Ideal) .rsqrt (deg dst2 j : Ideal .f32) : Ideal .f32) (0 : Ideal .f32)

/-- The dense product of node rows with weight rows: entry `(i, c)` is the sum over `k` of `a i k * w c k`. -/
def prod {K W : Nat} (a : Fin Nn → Fin K → EReal) (w : Fin W → Fin K → EReal) (i : Fin Nn) (c : Fin W) : EReal :=
  ∑ k, a i k * w c k

/-- Two blocks of 64 weight rows, one above the other. -/
def catW (Wa Wb : Fin 64 → Fin 128 → EReal) (r : Fin 128) (k : Fin 128) : EReal :=
  if h : r.val < 64 then Wa ⟨r.val, h⟩ k else Wb ⟨r.val - 64, by omega⟩ k

section Layers

variable (src2 dst2 : IVec SE 32)

/-- The kernel's aggregation of an already scaled array `Q`: the rows the edges into `j` read, summed, times `dinv j`. -/
def kerAgg {W : Nat} (Q : Fin Nn → Fin W → EReal) (j : Fin Nn) (c : Fin W) : EReal :=
  (∑ e ∈ into dst2 j, Q (srcNode src2 e) c) * dinv dst2 j

/-- The reference's aggregation of `P`: each row read times the two ends' scales, summed. -/
def refAgg {W : Nat} (P : Fin Nn → Fin W → EReal) (j : Fin Nn) (c : Fin W) : EReal :=
  ∑ e ∈ into dst2 j, P (srcNode src2 e) c * (dinv dst2 (srcNode src2 e) * dinv dst2 (dstNode dst2 e))

variable (x : Fin Nn → Fin 512 → EReal) (W1 : Fin 128 → Fin 512 → EReal) (b1 : Fin 128 → EReal)

/-- The kernel's hidden layer. -/
def kerH : Fin Nn → Fin 128 → EReal :=
  fun j c => max (kerAgg src2 dst2 (fun i c' => prod x W1 i c' * dinv dst2 i) j c + b1 c) 0

/-- The kernel's second aggregation, on the 128 stacked output columns, before the bias. -/
def kerOut (Wc : Fin 128 → Fin 128 → EReal) : Fin Nn → Fin 128 → EReal :=
  kerAgg src2 dst2 (fun i c' => prod (kerH src2 dst2 x W1 b1) Wc i c' * dinv dst2 i)

/-- The reference's hidden layer. -/
def refH : Fin Nn → Fin 128 → EReal :=
  fun j c => max (refAgg src2 dst2 (prod x W1) j c + b1 c) 0

/-- One of the reference's two output layers. -/
def refOut (Wo : Fin 64 → Fin 128 → EReal) (bo : Fin 64 → EReal) : Fin Nn → Fin 64 → EReal :=
  fun j c => refAgg src2 dst2 (prod (refH src2 dst2 x W1 b1) Wo) j c + bo c

end Layers

end Cert.Gcn

end
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«124000_j5858335392034_2_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.Law.lean ====
/-
  The algebra that joins the two programs.

  For an edge `e` summed into node `j` the receiving word read signed is `j`, hence non-negative, so the reference's
  look-up of the receiver's scale (the word moved up when negative, then clamped) lands on `j` itself
  (`dstNode_of_mem`). Every degree is a finite sum of ones, so every scale is a real number (`isReal_dinv`): the inverse
  square root of a positive real, or zero. On real numbers a common factor moves out of a finite sum
  (`sum_mul_of_isReal`), which turns the reference's "each row times both ends' scales" into the kernel's "rows scaled
  at the source, summed, scaled at the receiver" (`agg_law`). The hidden layers agree (`kerH_eq_refH`), are real
  (`isReal_refH`), and the kernel's 128 stacked output columns are the reference's two 64-column outputs
  (`kerOut_cat_lo`, `kerOut_cat_hi`).
-/
import proofs.«124000_j5858335392034_2_alg».proof.Proof.Spec
import proofs.«124000_j5858335392034_2_alg».proof.Proof.LibFinite
import proofs.«124000_j5858335392034_2_alg».proof.Proof.LibPreDecode

noncomputable section

open scoped BigOperators

namespace Cert.Gcn

open Idealize.ShloMosaic Idealize.ShloMosaic.ValueIdx Cert.Finite Cert.RowOps

/-! ## Index words -/

/-- A word that is non-negative read signed is not moved. -/
theorem wrap_of_nonneg {w : BitVec 32} (h : 0 ≤ w.toInt) : wrap w = w := by
  have hs : w.slt 0#32 = false := by
    rw [BitVec.slt_eq_decide]
    exact decide_eq_false (by simpa using h)
  unfold wrap Scalar.select IntOp.cmpi
  simp [hs]

/-- A word that names the row `j` exactly is looked up at `j`. -/
theorem gatherRow_wrap_of_toInt {w : BitVec 32} {j : Fin Nn} (h : w.toInt = (j.val : Int)) :
    gatherRow Nn Nn_pos (wrap w) = j := by
  rw [wrap_of_nonneg (by omega)]
  unfold gatherRow
  apply Fin.ext
  have hj := j.isLt
  show min w.toInt.toNat (Nn - 1) = j.val
  rw [h]
  simp only [Int.toNat_natCast]
  omega

/-- For an edge summed into `j`, the reference's look-up of the receiver is `j`. -/
theorem dstNode_of_mem {dst2 : IVec SE 32} {j : Fin Nn} {e : Fin Ne} (h : e ∈ into dst2 j) : dstNode dst2 e = j :=
  gatherRow_wrap_of_toInt ((scatterRow_eq_some_iff _ _).mp (Finset.mem_filter.mp h).2)

/-! ## Every scale is a real number -/

theorem isReal_oneF : IsReal oneF := isReal_ofBits_f32 _ (by decide)

theorem isReal_deg (dst2 : IVec SE 32) (j : Fin Nn) : IsReal (deg dst2 j) :=
  isReal_sum _ _ fun _ _ => isReal_oneF

/-- The inverse square root of a positive real is a real. -/
theorem isReal_rsqrt_of_pos {a : EReal} (ha : IsReal a) (hp : 0 < a) : IsReal (Ideal.rsqrt a) := by
  obtain ⟨r, rfl⟩ := ha
  have hr : 0 < r := by exact_mod_cast hp
  rw [Ideal.rsqrt_coe, if_neg (not_lt.mpr hr.le), if_neg hr.ne']
  exact isReal_coe _

theorem isReal_dinv (dst2 : IVec SE 32) (j : Fin Nn) : IsReal (dinv dst2 j) := by
  unfold dinv Scalar.select
  split
  · rename_i h
    have hp : (0 : EReal) < deg dst2 j := Cert.PreDecodeLib.lt_of_ogt h
    rw [Ideal.hostUnary_rsqrt_def]
    exact isReal_rsqrt_of_pos (isReal_deg dst2 j) hp
  · exact isReal_zero

/-! ## A real factor moves out of a finite sum of reals -/

theorem add_mul_of_isReal {a b d : EReal} (ha : IsReal a) (hb : IsReal b) (hd : IsReal d) :
    (a + b) * d = a * d + b * d := by
  obtain ⟨a, rfl⟩ := ha; obtain ⟨b, rfl⟩ := hb; obtain ⟨d, rfl⟩ := hd
  rw [← EReal.coe_add, ← EReal.coe_mul, ← EReal.coe_mul, ← EReal.coe_mul, ← EReal.coe_add, add_mul]

theorem sum_mul_of_isReal {ι : Type*} (s : Finset ι) (f : ι → EReal) (hf : ∀ i ∈ s, IsReal (f i)) {d : EReal}
    (hd : IsReal d) : (∑ i ∈ s, f i) * d = ∑ i ∈ s, f i * d := by
  classical
  induction s using Finset.induction_on with
  | empty => simp
  | insert a s ha ih =>
    have hs : ∀ i ∈ s, IsReal (f i) := fun i hi => hf i (Finset.mem_insert_of_mem hi)
    rw [Finset.sum_insert ha, Finset.sum_insert ha,
      add_mul_of_isReal (hf a (Finset.mem_insert_self a s)) (isReal_sum s f hs) hd, ih hs]

/-! ## One layer -/

section Layers

variable (src2 dst2 : IVec SE 32)

/-- THE LAW OF ONE LAYER, at column `c`: rows scaled at the source, summed over the edges into `j`, scaled at `j`, are
    the rows each times both ends' scales, summed — for a real column of `P`. -/
theorem agg_law {W : Nat} (P : Fin Nn → Fin W → EReal) (j : Fin Nn) (c : Fin W) (hP : ∀ i, IsReal (P i c)) :
    kerAgg src2 dst2 (fun i c' => P i c' * dinv dst2 i) j c = refAgg src2 dst2 P j c := by
  unfold kerAgg refAgg
  have hterm : ∀ e ∈ into dst2 j,
      P (srcNode src2 e) c * (dinv dst2 (srcNode src2 e) * dinv dst2 (dstNode dst2 e))
        = (P (srcNode src2 e) c * dinv dst2 (srcNode src2 e)) * dinv dst2 j :=
    fun e he => by rw [dstNode_of_mem he, mul_assoc]
  rw [Finset.sum_congr rfl hterm]
  exact sum_mul_of_isReal _ _ (fun e _ => (hP _).mul (isReal_dinv dst2 _)) (isReal_dinv dst2 j)

theorem isReal_prod {K W : Nat} (a : Fin Nn → Fin K → EReal) (w : Fin W → Fin K → EReal) (ha : ∀ i k, IsReal (a i k))
    (i : Fin Nn) (c : Fin W) (hw : ∀ k, IsReal (w c k)) : IsReal (prod a w i c) :=
  isReal_sum_univ _ fun k => (ha i k).mul (hw k)

theorem isReal_refAgg {W : Nat} (P : Fin Nn → Fin W → EReal) (j : Fin Nn) (c : Fin W) (hP : ∀ i, IsReal (P i c)) :
    IsReal (refAgg src2 dst2 P j c) :=
  isReal_sum _ _ fun e _ => (hP _).mul ((isReal_dinv dst2 _).mul (isReal_dinv dst2 _))

variable (x : Fin Nn → Fin 512 → EReal) (W1 : Fin 128 → Fin 512 → EReal) (b1 : Fin 128 → EReal)

/-- The two hidden layers agree on real inputs. -/
theorem kerH_eq_refH (hx : ∀ i k, IsReal (x i k)) (hW1 : ∀ r k, IsReal (W1 r k)) :
    kerH src2 dst2 x W1 b1 = refH src2 dst2 x W1 b1 := by
  funext j c
  unfold kerH refH
  rw [agg_law src2 dst2 (prod x W1) j c fun i => isReal_prod x W1 hx i c (hW1 c)]

/-- The hidden layer is real on real inputs. -/
theorem isReal_refH (hx : ∀ i k, IsReal (x i k)) (hW1 : ∀ r k, IsReal (W1 r k)) (hb1 : ∀ r, IsReal (b1 r))
    (j : Fin Nn) (c : Fin 128) : IsReal (refH src2 dst2 x W1 b1 j c) := by
  unfold refH
  exact ((isReal_refAgg src2 dst2 (prod x W1) j c fun i => isReal_prod x W1 hx i c (hW1 c)).add (hb1 c)).max isReal_zero

/-- The lower 64 rows of the stacked weights are the first block. -/
theorem catW_lo (Wa Wb : Fin 64 → Fin 128 → EReal) (c : Fin 64) (k : Fin 128) :
    catW Wa Wb ⟨c.val, by omega⟩ k = Wa c k := by
  unfold catW
  rw [dif_pos (show (⟨c.val, by omega⟩ : Fin 128).val < 64 from c.isLt)]

/-- The upper 64 rows of the stacked weights are the second block. -/
theorem catW_hi (Wa Wb : Fin 64 → Fin 128 → EReal) (c : Fin 64) (k : Fin 128) :
    catW Wa Wb ⟨c.val + 64, by omega⟩ k = Wb c k := by
  unfold catW
  rw [dif_neg (show ¬ (⟨c.val + 64, by omega⟩ : Fin 128).val < 64 from by simp)]
  congr 1

variable (Wa Wb : Fin 64 → Fin 128 → EReal)

/-- The kernel's stacked output at a column of the lower half, plus the bias, is the reference's first output. -/
theorem kerOut_cat_lo (hx : ∀ i k, IsReal (x i k)) (hW1 : ∀ r k, IsReal (W1 r k)) (hb1 : ∀ r, IsReal (b1 r))
    (hWa : ∀ r k, IsReal (Wa r k)) (bo : Fin 64 → EReal) (j : Fin Nn) (c : Fin 64) :
    kerOut src2 dst2 x W1 b1 (catW Wa Wb) j ⟨c.val, by omega⟩ + bo c = refOut src2 dst2 x W1 b1 Wa bo j c := by
  unfold kerOut refOut
  rw [kerH_eq_refH src2 dst2 x W1 b1 hx hW1]
  have hcol : ∀ i, prod (refH src2 dst2 x W1 b1) (catW Wa Wb) i ⟨c.val, by omega⟩ = prod (refH src2 dst2 x W1 b1) Wa i c :=
    fun i => by unfold prod; exact Finset.sum_congr rfl fun k _ => by rw [catW_lo]
  rw [agg_law src2 dst2 _ j _ fun i => by
    rw [hcol i]; exact isReal_prod _ Wa (isReal_refH src2 dst2 x W1 b1 hx hW1 hb1) i c (hWa c)]
  refine congrArg (fun t => t + bo c) ?_
  unfold refAgg
  exact Finset.sum_congr rfl fun e _ => by rw [hcol]

/-- The kernel's stacked output at a column of the upper half, plus the bias, is the reference's second output. -/
theorem kerOut_cat_hi (hx : ∀ i k, IsReal (x i k)) (hW1 : ∀ r k, IsReal (W1 r k)) (hb1 : ∀ r, IsReal (b1 r))
    (hWb : ∀ r k, IsReal (Wb r k)) (bo : Fin 64 → EReal) (j : Fin Nn) (c : Fin 64) :
    kerOut src2 dst2 x W1 b1 (catW Wa Wb) j ⟨c.val + 64, by omega⟩ + bo c = refOut src2 dst2 x W1 b1 Wb bo j c := by
  unfold kerOut refOut
  rw [kerH_eq_refH src2 dst2 x W1 b1 hx hW1]
  have hcol : ∀ i, prod (refH src2 dst2 x W1 b1) (catW Wa Wb) i ⟨c.val + 64, by omega⟩ = prod (refH src2 dst2 x W1 b1) Wb i c :=
    fun i => by unfold prod; exact Finset.sum_congr rfl fun k _ => by rw [catW_hi]
  rw [agg_law src2 dst2 _ j _ fun i => by
    rw [hcol i]; exact isReal_prod _ Wb (isReal_refH src2 dst2 x W1 b1 hx hW1 hb1) i c (hWb c)]
  refine congrArg (fun t => t + bo c) ?_
  unfold refAgg
  exact Finset.sum_congr rfl fun e _ => by rw [hcol]

end Layers

end Cert.Gcn

end
-- ==== Proof.PreDecode.lean ====
/-
  The precondition read back: `finite_inputs` is the conjunction, over the seven float arguments, of "every entry's
  absolute value is below +infinity"; each conjunct says every entry of that argument is a real number.
-/
import proofs.«124000_j5858335392034_2_alg».proof.Pre_finite_inputs
import proofs.«124000_j5858335392034_2_alg».proof.Proof.LibFinite
import proofs.«124000_j5858335392034_2_alg».proof.Proof.LibPreDecode

noncomputable section

namespace Cert.Gcn

open Idealize.ShloMosaic Idealize.ShloMosaic.ValueIdx Cert.Finite Cert.PreDecodeLib Cert.Pre_finite_inputs

/-- Under `finite_inputs` every entry of every float argument is a real number. -/
theorem reals_of_pre [Cert.Pre_finite_inputs.Facts] (a0 : FVec Ideal S50000x512 .f32) (a1 : IVec S2x800000 32)
    (a2 : FVec Ideal S128x512 .f32) (a3 : FVec Ideal S128 .f32) (a4 : FVec Ideal S64x128 .f32) (a5 : FVec Ideal S64 .f32)
    (a6 : FVec Ideal S64x128 .f32) (a7 : FVec Ideal S64 .f32)
    (h : Cert.Pre_finite_inputs.fn (F := Ideal) a0 a1 a2 a3 a4 a5 a6 a7 = fun _ => 1#1) :
    AllReal a0 ∧ AllReal a2 ∧ AllReal a3 ∧ AllReal a4 ∧ AllReal a5 ∧ AllReal a6 ∧ AllReal a7 := by
  unfold Cert.Pre_finite_inputs.fn Cert.Pre_finite_inputs.fn_part1 at h
  dsimp only at h
  obtain ⟨h28, h7⟩ := andi_eq_one h
  obtain ⟨h23, h6⟩ := andi_eq_one h28
  obtain ⟨h18, h5⟩ := andi_eq_one h23
  obtain ⟨h13, h4⟩ := andi_eq_one h18
  obtain ⟨h8, h3⟩ := andi_eq_one h13
  obtain ⟨h0, h2⟩ := andi_eq_one h8
  exact ⟨finite_of_all_eq a0 _ _ _ h0, finite_of_all_eq a2 _ _ _ h2, finite_of_all_eq a3 _ _ _ h3,
    finite_of_all_eq a4 _ _ _ h4, finite_of_all_eq a5 _ _ _ h5, finite_of_all_eq a6 _ _ _ h6,
    finite_of_all_eq a7 _ _ _ h7⟩

end Cert.Gcn

end
-- ==== Proof.KerRun.lean ====
/-
  The kernel program's run, from the launch to the return: every weakly fair execution on the TensorCores terminates,
  and in every final state the two result buffers hold the last boundary's contents and the eight argument arrays are
  as launched.
-/
import proofs.«124000_j5858335392034_2_alg».proof.Proof.Gen.KernelIdeal.Frame
import Idealize.ShloMosaic.PureOps.Ideal

set_option maxRecDepth 16384

noncomputable section

namespace Cert.Gcn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: from any memory with zero counters every weakly fair execution of the program on the TensorCores terminates
    without fault, and every final state has the two result buffers at the last boundary's contents and each argument
    array as launched. -/
theorem run : θ_run defs (onTc (τ := τ) (main (F := Ideal))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v50 (by decide)),
       h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Gcn.Ker

end
-- ==== Proof.KerRegions.lean ====
/-
  The two regions of the kernel program, read entry by entry.

  Each region runs one body over 25 blocks of 2000 rows. The body contracts each row of its block of the row array with
  each of the 128 rows of the weight array (a sum over the shared axis, into a zero accumulator) and multiplies row `p`'s
  128 results by row `p`'s entry of the scale column. Block `t` of each row-blocked array is its rows
  `2000 t … 2000 t + 1999`, the weight block is the whole weight array at every point, and point `t` writes its block of
  results back to rows `2000 t … 2000 t + 1999` of the result array; row `r` is covered by point `r / 2000`. So at the
  region's exit entry `(i, c)` of the result array is (the sum over `k` of `rows i k * weights c k`) times `scale i`,
  all three read as the region was entered with them.
-/
import proofs.«124000_j5858335392034_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.Gcn.Ker

open Cert.KernelIdeal Cert.KernelIdeal.Gen
open Idealize.ShloMosaic Idealize.ShloMosaic.ValueIdx Idealize.ShloMosaic.TcCoe
open Idealize.ShloMosaic.Pipeline (Dat Cfg Window)

/-- The product of two extended reals. -/
local infixl:70 " *ₑ " => @HMul.hMul EReal EReal EReal instHMul

theorem hz : (![0, 0] : Fin 2 → Nat) = fun _ => 0 := funext fun a => by fin_cases a <;> rfl

/-- Off its contracted axis the left operand is read on the output's row … -/
theorem dot0_lhs_row (j : S2000x128.Idx) (k : dot_S2000x512_S128x512_S2000x128_1_1_0_0_n_n.contr.Idx) :
    (dot_S2000x512_S128x512_S2000x128_1_1_0_0_n_n.lhsIdx j k 0).val = (j 0).val := by
  unfold DotDims.lhsIdx
  rw [dif_neg (show ¬(0 : Fin S2000x512.rank) ∈ dot_S2000x512_S128x512_S2000x128_1_1_0_0_n_n.lhsBatch by decide), dif_pos (show (0 : Fin S2000x512.rank) ∈ dot_S2000x512_S128x512_S2000x128_1_1_0_0_n_n.lhsNonContracting by decide)]
  rfl
/-- … and the right operand on the row the output's lane names. -/
theorem dot0_rhs_row (j : S2000x128.Idx) (k : dot_S2000x512_S128x512_S2000x128_1_1_0_0_n_n.contr.Idx) :
    (dot_S2000x512_S128x512_S2000x128_1_1_0_0_n_n.rhsIdx j k 0).val = (j 1).val := by
  unfold DotDims.rhsIdx
  rw [dif_neg (show ¬(0 : Fin S128x512.rank) ∈ dot_S2000x512_S128x512_S2000x128_1_1_0_0_n_n.rhsBatch by decide), dif_pos (show (0 : Fin S128x512.rank) ∈ dot_S2000x512_S128x512_S2000x128_1_1_0_0_n_n.rhsNonContracting by decide)]
  rfl

/-- The contraction of row `p` of the left block with row `q` of the weight block. -/
theorem dot0_apply (a : FVec Ideal S2000x512 .bf16) (b : FVec Ideal S128x512 .bf16) (p : Fin 2000) (q : Fin 128) :
    matmul dot_S2000x512_S128x512_S2000x128_1_1_0_0_n_n none a b (constant (F := Ideal) S2000x128 .f32 0x00000000#32) (ix2 p q)
      = ∑ k : Fin 512, a (ix2 p k) * b (ix2 q k) := by
  refine (Ideal.matmul_constant_zero_apply dot_S2000x512_S128x512_S2000x128_1_1_0_0_n_n none a b (ix2 p q)).trans ?_
  rw [← Equiv.sum_comp (contrEquiv1 dot_S2000x512_S128x512_S2000x128_1_1_0_0_n_n 512 rfl rfl).symm]
  refine Finset.sum_congr rfl fun k _ => ?_
  have hk := contrEquiv1_symm_val dot_S2000x512_S128x512_S2000x128_1_1_0_0_n_n 512 rfl rfl k
  have el : dot_S2000x512_S128x512_S2000x128_1_1_0_0_n_n.lhsIdx (ix2 p q) ((contrEquiv1 dot_S2000x512_S128x512_S2000x128_1_1_0_0_n_n 512 rfl rfl).symm k) = ix2 p k :=
    funext fun x => Fin.ext (by
      match x with
      | ⟨0, _⟩ => exact dot0_lhs_row _ _
      | ⟨1, _⟩ => exact (dot_S2000x512_S128x512_S2000x128_1_1_0_0_n_n.lhsIdx_val_of_single rfl (ix2 p q) _).trans hk)
  have er : dot_S2000x512_S128x512_S2000x128_1_1_0_0_n_n.rhsIdx (ix2 p q) ((contrEquiv1 dot_S2000x512_S128x512_S2000x128_1_1_0_0_n_n 512 rfl rfl).symm k) = ix2 q k :=
    funext fun x => Fin.ext (by
      match x with
      | ⟨0, _⟩ => exact dot0_rhs_row _ _
      | ⟨1, _⟩ => exact (dot_S2000x512_S128x512_S2000x128_1_1_0_0_n_n.rhsIdx_val_of_single rfl (ix2 p q) _).trans hk)
  rw [el, er]

/-- The column of scales spread over the 128 lanes reads its row's scale. -/
theorem spread_apply (s : FVec Ideal S2000x1 .f32) (p : Fin 2000) (q : Fin 128) :
    broadcastTo S2000x128 (shapeCast S2000x1 s shapeCasts_S2000x1_S2000x1) broadcasts_S2000x1_S2000x128 (ix2 p q) = s (ix2 p 0) := by
  rw [shapeCast_self]
  exact broadcastTo_apply s broadcasts_S2000x1_S2000x128 (ix2 p q) (ix2 p 0) (fun a => by
    match a with
    | ⟨0, _⟩ => rfl
    | ⟨1, _⟩ => rfl)

/-- Region 0's payload at row `p`, lane `q`. -/
theorem pay0_apply (x0 : Vec Ideal S2000x512 .f32) (x1 : Vec Ideal S128x512 .f32) (x2 : Vec Ideal S2000x1 .f32) (p : Fin 2000) (q : Fin 128) :
    k0_pay1 x0 x1 x2 (ix2 p q) = (∑ k : Fin 512, x0 (ix2 p k) * x1 (ix2 q k)) * x2 (ix2 p 0) := by
  unfold k0_pay1
  refine (mulf_apply _ _ (ix2 p q)).trans ?_
  refine (congrArg₂ (· * ·) (dot0_apply _ _ p q) (spread_apply x2 p q)).trans ?_
  rfl

/-- Off its contracted axis the left operand is read on the output's row … -/
theorem dot1_lhs_row (j : S2000x128.Idx) (k : dot_S2000x128_S128x128_S2000x128_1_1_0_0_n_n.contr.Idx) :
    (dot_S2000x128_S128x128_S2000x128_1_1_0_0_n_n.lhsIdx j k 0).val = (j 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
/-- … and the right operand on the row the output's lane names. -/
theorem dot1_rhs_row (j : S2000x128.Idx) (k : dot_S2000x128_S128x128_S2000x128_1_1_0_0_n_n.contr.Idx) :
    (dot_S2000x128_S128x128_S2000x128_1_1_0_0_n_n.rhsIdx j k 0).val = (j 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl

/-- The contraction of row `p` of the left block with row `q` of the weight block. -/
theorem dot1_apply (a : FVec Ideal S2000x128 .bf16) (b : FVec Ideal S128x128 .bf16) (p : Fin 2000) (q : Fin 128) :
    matmul dot_S2000x128_S128x128_S2000x128_1_1_0_0_n_n none a b (constant (F := Ideal) S2000x128 .f32 0x00000000#32) (ix2 p q)
      = ∑ k : Fin 128, a (ix2 p k) * b (ix2 q k) := by
  refine (Ideal.matmul_constant_zero_apply dot_S2000x128_S128x128_S2000x128_1_1_0_0_n_n none a b (ix2 p q)).trans ?_
  rw [← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p q) ((contrEquiv1 dot_S2000x128_S128x128_S2000x128_1_1_0_0_n_n 128 rfl rfl).symm k) = ix2 p k :=
    funext fun x => Fin.ext (by
      match x with
      | ⟨0, _⟩ => exact dot1_lhs_row _ _
      | ⟨1, _⟩ => exact (dot_S2000x128_S128x128_S2000x128_1_1_0_0_n_n.lhsIdx_val_of_single rfl (ix2 p q) _).trans hk)
  have er : dot_S2000x128_S128x128_S2000x128_1_1_0_0_n_n.rhsIdx (ix2 p q) ((contrEquiv1 dot_S2000x128_S128x128_S2000x128_1_1_0_0_n_n 128 rfl rfl).symm k) = ix2 q k :=
    funext fun x => Fin.ext (by
      match x with
      | ⟨0, _⟩ => exact dot1_rhs_row _ _
      | ⟨1, _⟩ => exact (dot_S2000x128_S128x128_S2000x128_1_1_0_0_n_n.rhsIdx_val_of_single rfl (ix2 p q) _).trans hk)
  rw [el, er]

/-- Region 1's payload at row `p`, lane `q`. -/
theorem pay1_apply (x0 : Vec Ideal S2000x128 .f32) (x1 : Vec Ideal S128x128 .f32) (x2 : Vec Ideal S2000x1 .f32) (p : Fin 2000) (q : Fin 128) :
    k1_pay1 x0 x1 x2 (ix2 p q) = (∑ k : Fin 128, x0 (ix2 p k) * x1 (ix2 q k)) * x2 (ix2 p 0) := by
  unfold k1_pay1
  refine (mulf_apply _ _ (ix2 p q)).trans ?_
  refine (congrArg₂ (· * ·) (dot1_apply _ _ p q) (spread_apply x2 p q)).trans ?_
  simp only [shapeCast_self]
  rfl

/-! ## Region 0: from the blocks to the array -/

/-- Rows of `A` contracted with rows of `B`, each row's result times that row's entry of the column `D`. -/
def rowsTimes0 (A : S50000x512.Idx → EReal) (B : S128x512.Idx → EReal) (D : S50000x1.Idx → EReal) : S50000x128.Idx → EReal :=
  fun idx => (∑ k : Fin 512, A (ix2 (⟨(idx 0).val, (idx 0).isLt⟩ : Fin 50000) k) * B (ix2 (⟨(idx 1).val, (idx 1).isLt⟩ : Fin 128) k))
    * D (ix2 (⟨(idx 0).val, (idx 0).isLt⟩ : Fin 50000) (0 : Fin 1))

/-- The four windows' block indices at each of the 25 grid points: the row-blocked windows sit at block `t`, the weight
    window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The whole-array function at an entry of block `t`: row `2000 t + p`, lane `q`. -/
theorem rowsTimes0_blk (A : S50000x512.Idx → EReal) (B : S128x512.Idx → EReal) (D : S50000x1.Idx → EReal) (t : Fin cfg0.N)
    (p : Fin 2000) (q : Fin 128) (r : Fin 50000) (hr : r.val = 2000 * t.val + p.val) :
    rowsTimes0 A B D (((cfg0.win 3).blk t).view.emb (ix2 p q))
      = (∑ k : Fin 512, A (ix2 r k) * B (ix2 q k)) * D (ix2 r (0 : Fin 1)) := by
  obtain ⟨-, -, -, -, -, -, e0, e1⟩ := idx_facts0 t
  have he : ((cfg0.win 3).blk t).view.emb (ix2 p q) = (ix2 r q : S50000x128.Idx) := funext fun a => Fin.ext (by
    match a with
    | ⟨0, _⟩ => show win0_3.index t (0 : Fin 2) * 2000 + 1 * p.val = r.val; omega
    | ⟨1, _⟩ => show win0_3.index t (1 : Fin 2) * 128 + 1 * q.val = q.val; omega)
  rw [he]
  rfl

section Region0
variable (V : (c : Dev nD) → (b : Ref sig .tc) → Buf (Elt Ideal) ((c : Thread nD τ).loc b))

/-- Block `t` of the node rows is rows `2000 t … 2000 t + 1999` of the array. -/
theorem blk0_0_apply (c : Dev nD) (t : Fin cfg0.N) (p : Fin 2000) (k : Fin 512) (r : Fin 50000) (hr : r.val = 2000 * t.val + p.val) :
    (iblk0 V c 0 t : Vec Ideal S2000x512 .f32) (ix2 p k) = (V c main_arg0 : S50000x512.Idx → EReal) (ix2 r k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 512 + 1 * k.val = k.val; omega

/-- Every point's block of the weights is the whole array. -/
theorem blk0_1_apply (c : Dev nD) (t : Fin cfg0.N) (q : Fin 128) (k : Fin 512) :
    (iblk0 V c 1 t : Vec Ideal S128x512 .f32) (ix2 q k) = (V c main_arg2 : S128x512.Idx → EReal) (ix2 q k) := by
  obtain ⟨-, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * q.val = q.val; omega
  | ⟨1, _⟩ => show win0_1.index t (1 : Fin 2) * 512 + 1 * k.val = k.val; omega

/-- Block `t` of the scale column is its entries `2000 t … 2000 t + 1999`. -/
theorem blk0_2_apply (c : Dev nD) (t : Fin cfg0.N) (p : Fin 2000) (r : Fin 50000) (hr : r.val = 2000 * t.val + p.val) :
    (iblk0 V c 2 t : Vec Ideal S2000x1 .f32) (ix2 p (0 : Fin 1)) = (V c main_v15 : S50000x1.Idx → EReal) (ix2 r (0 : Fin 1)) := by
  obtain ⟨-, -, -, -, e0, e1, -⟩ := idx_facts0 t
  unfold iblk0
  rw [View.read_apply]
  show V c main_v15 _ = V c main_v15 _
  refine congrArg (V c main_v15) (funext fun a => Fin.ext ?_)
  match a with
  | ⟨0, _⟩ => show win0_2.index t (0 : Fin 2) * 2000 + 1 * p.val = r.val; omega
  | ⟨1, _⟩ => show win0_2.index t (1 : Fin 2) * 1 + 1 * 0 = 0; omega

/-- What point `t` writes back is block `t` of the one whole-array function. -/
theorem flushed0_eq (c : Dev nD) (t : Fin cfg0.N) :
    (dat0 V c).flushed 3 t = ((cfg0.win 3).blk t).view.read (Elt Ideal)
      (rowsTimes0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S2000x512) hz, View.ld_unit_zero (S := S128x512) hz, View.ld_unit_zero (S := S2000x1) hz]
  funext j
  obtain ⟨p, q, rfl⟩ : ∃ (p : Fin 2000) (q : Fin 128), j = ix2 p q := ⟨j 0, j 1, eq_ix2 j⟩
  have hN : cfg0.N = 25 := N_0
  have hr : 2000 * t.val + p.val < 50000 := by have := t.isLt; have := p.isLt; omega
  show k0_pay1 (iblk0 V c 0 t) (iblk0 V c 1 t) (iblk0 V c 2 t) (ix2 p q)
    = rowsTimes0 (V c main_arg0) (V c main_arg2) (V c main_v15) (((cfg0.win 3).blk t).view.emb (ix2 p q))
  refine ((pay0_apply (iblk0 V c 0 t) (iblk0 V c 1 t) (iblk0 V c 2 t) p q).trans ?_).trans
    (rowsTimes0_blk (V c main_arg0) (V c main_arg2) (V c main_v15) t p q ⟨_, hr⟩ rfl).symm
  exact congrArg₂ (· * ·)
    (Finset.sum_congr rfl fun k _ => congrArg₂ (· * ·) (blk0_0_apply V c t p k ⟨_, hr⟩ rfl) (blk0_1_apply V c t q k))
    (blk0_2_apply V c t p ⟨_, hr⟩ rfl)

/-- An index of the result array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v16).slice (win0_3.rect t)).set ↔ _
  rw [View.set_slice_whole, Rect.mem_set_unit]
  exact Iff.rfl

/-- Row `r` of the result array lies in the block of point `r / 2000`, which is written back. -/
theorem cover0 (i : S50000x128.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- The result array after the region: the one whole-array function of the arrays the region was entered with. -/
theorem final0 (c : Dev nD) : (dat0 V c).arrAt 3 cfg0.N = rowsTimes0 (V c main_arg0) (V c main_arg2) (V c main_v15) :=
  (dat0 V c).arrAt_eq_of_cover 3 (rowsTimes0 (V c main_arg0) (V c main_arg2) (V c main_v15))
    (fun t _ => flushed0_eq V c t) cover0

end Region0

variable (m : (ℓ : Loc nD τ sig) → Buf (Elt Ideal) ℓ) (ρ : Dev nD → PrngReg)

/-- REGION 0's result array at its exit, entry by entry: row `i` of the node array contracted with row `cc` of the
    weights, times node `i`'s scale — all three as the region was entered with them. -/
theorem region0_value (c : Dev nD) (i : Fin 50000) (cc : Fin 128) :
    @Eq EReal ((W4 (F := Ideal) m ρ c (Proc.devRef .tc main_v16) : S50000x128.Idx → EReal) (ix2 i cc))
      ((∑ k : Fin 512, (W3 (F := Ideal) m ρ c (Proc.devRef .tc main_arg0) : S50000x512.Idx → EReal) (ix2 i k)
            *ₑ (W3 (F := Ideal) m ρ c (Proc.devRef .tc main_arg2) : S128x512.Idx → EReal) (ix2 cc k))
          *ₑ (W3 (F := Ideal) m ρ c (Proc.devRef .tc main_v15) : S50000x1.Idx → EReal) (ix2 i (0 : Fin 1))) := by
  have h : (W4 (F := Ideal) m ρ c (Proc.devRef .tc main_v16) : S50000x128.Idx → EReal)
      = rowsTimes0 (V3 m ρ c main_arg0) (V3 m ρ c main_arg2) (V3 m ρ c main_v15) :=
    (W4_arr m ρ c 3).trans (final0 (V3 m ρ) c)
  rw [h]
  rfl

/-! ## Region 1: from the blocks to the array -/

/-- Rows of `A` contracted with rows of `B`, each row's result times that row's entry of the column `D`. -/
def rowsTimes1 (A : S50000x128.Idx → EReal) (B : S128x128.Idx → EReal) (D : S50000x1.Idx → EReal) : S50000x128.Idx → EReal :=
  fun idx => (∑ k : Fin 128, A (ix2 (⟨(idx 0).val, (idx 0).isLt⟩ : Fin 50000) k) * B (ix2 (⟨(idx 1).val, (idx 1).isLt⟩ : Fin 128) k))
    * D (ix2 (⟨(idx 0).val, (idx 0).isLt⟩ : Fin 50000) (0 : Fin 1))

/-- The four windows' block indices at each of the 25 grid points: the row-blocked windows sit at block `t`, the weight
    window at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The whole-array function at an entry of block `t`: row `2000 t + p`, lane `q`. -/
theorem rowsTimes1_blk (A : S50000x128.Idx → EReal) (B : S128x128.Idx → EReal) (D : S50000x1.Idx → EReal) (t : Fin cfg1.N)
    (p : Fin 2000) (q : Fin 128) (r : Fin 50000) (hr : r.val = 2000 * t.val + p.val) :
    rowsTimes1 A B D (((cfg1.win 3).blk t).view.emb (ix2 p q))
      = (∑ k : Fin 128, A (ix2 r k) * B (ix2 q k)) * D (ix2 r (0 : Fin 1)) := by
  obtain ⟨-, -, -, -, -, -, e0, e1⟩ := idx_facts1 t
  have he : ((cfg1.win 3).blk t).view.emb (ix2 p q) = (ix2 r q : S50000x128.Idx) := funext fun a => Fin.ext (by
    match a with
    | ⟨0, _⟩ => show win1_3.index t (0 : Fin 2) * 2000 + 1 * p.val = r.val; omega
    | ⟨1, _⟩ => show win1_3.index t (1 : Fin 2) * 128 + 1 * q.val = q.val; omega)
  rw [he]
  rfl

section Region1
variable (V : (c : Dev nD) → (b : Ref sig .tc) → Buf (Elt Ideal) ((c : Thread nD τ).loc b))

/-- Block `t` of the hidden rows is rows `2000 t … 2000 t + 1999` of the array. -/
theorem blk1_0_apply (c : Dev nD) (t : Fin cfg1.N) (p : Fin 2000) (k : Fin 128) (r : Fin 50000) (hr : r.val = 2000 * t.val + p.val) :
    (iblk1 V c 0 t : Vec Ideal S2000x128 .f32) (ix2 p k) = (V c main_v32 : S50000x128.Idx → EReal) (ix2 r k) := by
  obtain ⟨e0, e1, -⟩ := idx_facts1 t
  unfold iblk1
  rw [View.read_apply]
  show V c main_v32 _ = V c main_v32 _
  refine congrArg (V c main_v32) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Every point's block of the weights is the whole array. -/
theorem blk1_1_apply (c : Dev nD) (t : Fin cfg1.N) (q : Fin 128) (k : Fin 128) :
    (iblk1 V c 1 t : Vec Ideal S128x128 .f32) (ix2 q k) = (V c main_v33 : S128x128.Idx → EReal) (ix2 q k) := by
  obtain ⟨-, -, e0, e1, -⟩ := idx_facts1 t
  unfold iblk1
  rw [View.read_apply]
  show V c main_v33 _ = V c main_v33 _
  refine congrArg (V c main_v33) (funext fun a => Fin.ext ?_)
  match a with
  | ⟨0, _⟩ => show win1_1.index t (0 : Fin 2) * 128 + 1 * q.val = q.val; omega
  | ⟨1, _⟩ => show win1_1.index t (1 : Fin 2) * 128 + 1 * k.val = k.val; omega

/-- Block `t` of the scale column is its entries `2000 t … 2000 t + 1999`. -/
theorem blk1_2_apply (c : Dev nD) (t : Fin cfg1.N) (p : Fin 2000) (r : Fin 50000) (hr : r.val = 2000 * t.val + p.val) :
    (iblk1 V c 2 t : Vec Ideal S2000x1 .f32) (ix2 p (0 : Fin 1)) = (V c main_v15 : S50000x1.Idx → EReal) (ix2 r (0 : Fin 1)) := by
  obtain ⟨-, -, -, -, e0, e1, -⟩ := idx_facts1 t
  unfold iblk1
  rw [View.read_apply]
  show V c main_v15 _ = V c main_v15 _
  refine congrArg (V c main_v15) (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- What point `t` writes back is block `t` of the one whole-array function. -/
theorem flushed1_eq (c : Dev nD) (t : Fin cfg1.N) :
    (dat1 V c).flushed 3 t = ((cfg1.win 3).blk t).view.read (Elt Ideal)
      (rowsTimes1 (V c main_v32) (V c main_v33) (V c main_v15)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz, View.ld_unit_zero (S := S2000x1) hz]
  funext j
  obtain ⟨p, q, rfl⟩ : ∃ (p : Fin 2000) (q : Fin 128), j = ix2 p q := ⟨j 0, j 1, eq_ix2 j⟩
  have hN : cfg1.N = 25 := N_1
  have hr : 2000 * t.val + p.val < 50000 := by have := t.isLt; have := p.isLt; omega
  show k1_pay1 (iblk1 V c 0 t) (iblk1 V c 1 t) (iblk1 V c 2 t) (ix2 p q)
    = rowsTimes1 (V c main_v32) (V c main_v33) (V c main_v15) (((cfg1.win 3).blk t).view.emb (ix2 p q))
  refine ((pay1_apply (iblk1 V c 0 t) (iblk1 V c 1 t) (iblk1 V c 2 t) p q).trans ?_).trans
    (rowsTimes1_blk (V c main_v32) (V c main_v33) (V c main_v15) t p q ⟨_, hr⟩ rfl).symm
  exact congrArg₂ (· * ·)
    (Finset.sum_congr rfl fun k _ => congrArg₂ (· * ·) (blk1_0_apply V c t p k ⟨_, hr⟩ rfl) (blk1_1_apply V c t q k))
    (blk1_2_apply V c t p ⟨_, hr⟩ rfl)

/-- An index of the result array is in point `t`'s block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v34).slice (win1_3.rect t)).set ↔ _
  rw [View.set_slice_whole, Rect.mem_set_unit]
  exact Iff.rfl

/-- Row `r` of the result array lies in the block of point `r / 2000`, which is written back. -/
theorem cover1 (i : S50000x128.Idx) : ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, e0, e1⟩ := idx_facts1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- The result array after the region: the one whole-array function of the arrays the region was entered with. -/
theorem final1 (c : Dev nD) : (dat1 V c).arrAt 3 cfg1.N = rowsTimes1 (V c main_v32) (V c main_v33) (V c main_v15) :=
  (dat1 V c).arrAt_eq_of_cover 3 (rowsTimes1 (V c main_v32) (V c main_v33) (V c main_v15))
    (fun t _ => flushed1_eq V c t) cover1

end Region1

/-- REGION 1's result array at its exit, entry by entry: row `i` of the hidden array contracted with row `cc` of the
    weights, times node `i`'s scale — all three as the region was entered with them. -/
theorem region1_value (c : Dev nD) (i : Fin 50000) (cc : Fin 128) :
    @Eq EReal ((W8 (F := Ideal) m ρ c (Proc.devRef .tc main_v34) : S50000x128.Idx → EReal) (ix2 i cc))
      ((∑ k : Fin 128, (W7 (F := Ideal) m ρ c (Proc.devRef .tc main_v32) : S50000x128.Idx → EReal) (ix2 i k)
            *ₑ (W7 (F := Ideal) m ρ c (Proc.devRef .tc main_v33) : S128x128.Idx → EReal) (ix2 cc k))
          *ₑ (W7 (F := Ideal) m ρ c (Proc.devRef .tc main_v15) : S50000x1.Idx → EReal) (ix2 i (0 : Fin 1))) := by
  have h : (W8 (F := Ideal) m ρ c (Proc.devRef .tc main_v34) : S50000x128.Idx → EReal)
      = rowsTimes1 (V7 m ρ c main_v32) (V7 m ρ c main_v33) (V7 m ρ c main_v15) :=
    (W8_arr m ρ c 3).trans (final1 (V7 m ρ) c)
  rw [h]
  rfl

end Cert.Gcn.Ker
end
-- ==== Proof.KerHostTail.lean ====
/-
  The last host stretch of the kernel program, read element by element.

  After the second region the program wraps the sending index words (a negative word is moved up by 50000), gathers the
  rows of the scaled array by the wrapped words, scatter-adds them into zeros by the receiving words, scales row `j` by
  the column `dinv` array's entry `(j, 0)`, cuts the 128 columns into two halves of 64 and adds one bias vector to each.
  Read at `(j, cc)` each result is: the sum, over the edges into `j`, of the gathered array at the edge's source row and
  the half's column, times the scale at `j`, plus the bias at `cc`. Every step is stated over variable arrays and at
  symbolic indices; nothing enumerates an index set.
-/
import proofs.«124000_j5858335392034_2_alg».proof.Proof.Gen.KernelIdeal.Launch
import proofs.«124000_j5858335392034_2_alg».proof.Proof.Spec
import Idealize.ShloMosaic.Lib.StableHlo.Run
import Idealize.ShloMosaic.Lib.Pipeline.Value
import Idealize.ShloMosaic.Lib.ValueIdx

noncomputable section

open scoped BigOperators

namespace Cert.Gcn.Ker

open Idealize.ShloMosaic Idealize.ShloMosaic.TcCoe Idealize.ShloMosaic.ValueIdx Idealize.SL.Sem Idealize.ShloMosaic.StableHlo
open Cert.KernelIdeal Cert.KernelIdeal.Gen Cert.RowOps

/-! ## One operation at a time, over variable arrays -/

/-- The wrapped index word of edge `e`: the select of "negative", the word plus 50000, and the word itself. -/
theorem wrapWords_apply (v : IVec S850000 32) (e : Fin 850000) :
    (select (cmpi .slt v (broadcastInDim S850000 ![] bcast_S_S850000 (constantI S_ 32 0#32)))
      (addi v (broadcastInDim S850000 ![] bcast_S_S850000 (constantI S_ 32 50000#32))) v : IVec S850000 32) (ix1 e)
      = Cert.Gcn.wrap (v (ix1 e)) := rfl

/-- A flat array of words carried as one column, read at `(e, 0)`. -/
theorem column_apply (v : IVec S850000 32) (e : Fin 850000) :
    (broadcastInDim S850000x1 ![0] bcast_S850000_S850000x1_0 v : IVec S850000x1 32) (ix2 e 0) = v (ix1 e) :=
  broadcastInDim_apply _ bcast_S850000_S850000x1_0 v (ix2 e 0) (ix1 e) (fun a => match a with
    | ⟨0, _⟩ => by show e.val = if (850000 : Nat) = 1 then 0 else e.val; rw [if_neg (by decide)])

/-- The gather of rows at `(e, c)`: the operand at the clamped row the start index names, column `c`. -/
theorem gatherRows_apply (x : FVec Ideal S50000x128 .f32) (idx : IVec S850000x1 32) (e : Fin 850000) (c : Fin 128) :
    (Host.gather gather_S50000x128_S850000x1_S850000x128_1_0_n_n_0_1_1128 x idx : FVec Ideal S850000x128 .f32) (ix2 e c)
      = x (ix2 (gatherRow 50000 Cert.Gcn.Nn_pos (idx (ix2 e 0))) c) :=
  gather_rows_apply Cert.Gcn.Nn_pos _ rfl rfl rfl rfl rfl rfl rfl x idx e c

/-- The scatter-add of rows at `(r, c)`: the operand there plus the updates of the edges whose index names row `r`. -/
theorem scatterRows_apply (x : FVec Ideal S50000x128 .f32) (idx : IVec S850000x1 32) (upd : FVec Ideal S850000x128 .f32)
    (r : Fin 50000) (c : Fin 128) :
    Host.scatterAdd (F := Ideal) scatter_S50000x128_S850000x1_S850000x128_1_0_0_1 x idx upd (ix2 r c)
      = x (ix2 r c) + ∑ e ∈ Finset.univ.filter (fun e : Fin 850000 => scatterRow 50000 (idx (ix2 e 0)) = some r),
          upd (ix2 e c) :=
  scatterAdd_rows_apply _ rfl rfl rfl rfl x idx upd r c

/-- The array of zeros reads zero everywhere. -/
theorem zeros_apply (i : S50000x128.Idx) :
    (broadcastInDim S50000x128 ![] bcast_S_S50000x128 (constant (F := Ideal) S_ .f32 0x00000000#32)
      : FVec Ideal S50000x128 .f32) i = 0 := by
  show Ideal.ofBits .f32 0x00000000#32 = 0
  exact Ideal.ofBits_zero_f32

/-- The one-column scale array spread over 128 columns, read at `(j, c)`: its entry `(j, 0)`. -/
theorem scaleCols_apply (s : FVec Ideal S50000x1 .f32) (j : Fin 50000) (c : Fin 128) :
    (broadcastInDim S50000x128 ![0, 1] bcast_S50000x1_S50000x128_0_1 s : FVec Ideal S50000x128 .f32) (ix2 j c)
      = s (ix2 j 0) :=
  broadcastInDim_apply _ bcast_S50000x1_S50000x128_0_1 s (ix2 j c) (ix2 j 0) (fun a => match a with
    | ⟨0, _⟩ => by show j.val = if (50000 : Nat) = 1 then 0 else j.val; rw [if_neg (by decide)]
    | ⟨1, _⟩ => by show 0 = if (1 : Nat) = 1 then 0 else c.val; rw [if_pos rfl])

/-- The first 64 columns, read at `(j, cc)`. -/
theorem sliceLo_apply (x : FVec Ideal S50000x128 .f32) (j : Fin 50000) (cc : Fin 64) :
    (extractStridedSlice S50000x64 ![0, 0] x slices_S50000x128_S50000x64_0_0 : FVec Ideal S50000x64 .f32) (ix2 j cc)
      = x (ix2 j ⟨cc.val, by omega⟩) :=
  extractStridedSlice_apply ![0, 0] x slices_S50000x128_S50000x64_0_0 (ix2 j cc) (ix2 j ⟨cc.val, by omega⟩)
    (fun a => match a with
      | ⟨0, _⟩ => by show j.val = 0 + j.val; omega
      | ⟨1, _⟩ => by show cc.val = 0 + cc.val; omega)

/-- The last 64 columns, read at `(j, cc)`. -/
theorem sliceHi_apply (x : FVec Ideal S50000x128 .f32) (j : Fin 50000) (cc : Fin 64) :
    (extractStridedSlice S50000x64 ![0, 64] x slices_S50000x128_S50000x64_0_64 : FVec Ideal S50000x64 .f32) (ix2 j cc)
      = x (ix2 j ⟨cc.val + 64, by omega⟩) :=
  extractStridedSlice_apply ![0, 64] x slices_S50000x128_S50000x64_0_64 (ix2 j cc) (ix2 j ⟨cc.val + 64, by omega⟩)
    (fun a => match a with
      | ⟨0, _⟩ => by show j.val = 0 + j.val; omega
      | ⟨1, _⟩ => by show cc.val + 64 = 64 + cc.val; omega)

/-- A bias vector spread over the rows, read at `(j, cc)`: its entry `cc`. -/
theorem biasRows_apply (b : FVec Ideal S64 .f32) (j : Fin 50000) (cc : Fin 64) :
    (broadcastInDim S50000x64 ![0, 1] bcast_S1x64_S50000x64_0_1 (broadcastInDim S1x64 ![1] bcast_S64_S1x64_1 b)
      : FVec Ideal S50000x64 .f32) (ix2 j cc) = b (ix1 cc) := by
  refine (broadcastInDim_apply _ bcast_S1x64_S50000x64_0_1 _ (ix2 j cc) (ix2 0 cc) (fun a => match a with
    | ⟨0, _⟩ => by show 0 = if (1 : Nat) = 1 then 0 else j.val; rw [if_pos rfl]
    | ⟨1, _⟩ => by show cc.val = if (64 : Nat) = 1 then 0 else cc.val; rw [if_neg (by decide)])).trans ?_
  exact broadcastInDim_apply _ bcast_S64_S1x64_1 b (ix2 0 cc) (ix1 cc) (fun a => match a with
    | ⟨0, _⟩ => by show cc.val = if (64 : Nat) = 1 then 0 else cc.val; rw [if_neg (by decide)])

/-! ## The aggregation: gather by the wrapped sending words, scatter-add by the receiving words, scale -/

/-- The scaled scatter-add of the gathered rows at `(j, c)`: the sum over the edges into `j` of the array at the
    edge's source row, times the scale at `j`. The zero operand drops out by `0 + a = a`. -/
theorem aggregate_apply (v5 v6 : IVec S850000 32) (q : FVec Ideal S50000x128 .f32) (s : FVec Ideal S50000x1 .f32)
    (j : Fin 50000) (c : Fin 128) :
    (mulf
      (Host.scatterAdd (F := Ideal) scatter_S50000x128_S850000x1_S850000x128_1_0_0_1
        (broadcastInDim S50000x128 ![] bcast_S_S50000x128 (constant (F := Ideal) S_ .f32 0x00000000#32))
        (broadcastInDim S850000x1 ![0] bcast_S850000_S850000x1_0 v6)
        (Host.gather gather_S50000x128_S850000x1_S850000x128_1_0_n_n_0_1_1128 q
          (broadcastInDim S850000x1 ![0] bcast_S850000_S850000x1_0
            (select (cmpi .slt v5 (broadcastInDim S850000 ![] bcast_S_S850000 (constantI S_ 32 0#32)))
              (addi v5 (broadcastInDim S850000 ![] bcast_S_S850000 (constantI S_ 32 50000#32))) v5))))
      (broadcastInDim S50000x128 ![0, 1] bcast_S50000x1_S50000x128_0_1 s) : FVec Ideal S50000x128 .f32) (ix2 j c)
      = (∑ e ∈ Cert.Gcn.into v6 j, q (ix2 (Cert.Gcn.srcNode v5 e) c)) * s (ix2 j 0) := by
  rw [mulf_apply, scatterRows_apply, zeros_apply, zero_add, scaleCols_apply]
  refine congrArg (· * s (ix2 j 0)) ?_
  unfold Cert.Gcn.into
  refine Finset.sum_congr (Finset.filter_congr fun e _ => by rw [column_apply]) (fun e _ => ?_)
  rw [gatherRows_apply, column_apply, wrapWords_apply]
  rfl

/-! ## The two results of the stretch -/

/-- The first result at `(j, cc)`. -/
theorem tail_v50 (Wv : Valuation τ sig (Elt Ideal)) (j : Fin 50000) (cc : Fin 64) :
    (StableHlo.after hostOps2 Wv (Proc.devRef .tc main_v50) : S50000x64.Idx → EReal) (ix2 j cc)
      = (∑ e ∈ Cert.Gcn.into (Wv (Proc.devRef .tc main_v6)) j,
          (Wv (Proc.devRef .tc main_v34) : S50000x128.Idx → EReal)
            (ix2 (Cert.Gcn.srcNode (Wv (Proc.devRef .tc main_v5)) e) ⟨cc.val, by omega⟩) : EReal)
          * (Wv (Proc.devRef .tc main_v15) : S50000x1.Idx → EReal) (ix2 j 0)
        + (Wv (Proc.devRef .tc main_arg5) : S64.Idx → EReal) (ix1 cc) := by
  after_results_simp
  rw [addf_apply, sliceLo_apply, aggregate_apply, biasRows_apply]

/-- The second result at `(j, cc)`. -/
theorem tail_v54 (Wv : Valuation τ sig (Elt Ideal)) (j : Fin 50000) (cc : Fin 64) :
    (StableHlo.after hostOps2 Wv (Proc.devRef .tc main_v54) : S50000x64.Idx → EReal) (ix2 j cc)
      = (∑ e ∈ Cert.Gcn.into (Wv (Proc.devRef .tc main_v6)) j,
          (Wv (Proc.devRef .tc main_v34) : S50000x128.Idx → EReal)
            (ix2 (Cert.Gcn.srcNode (Wv (Proc.devRef .tc main_v5)) e) ⟨cc.val + 64, by omega⟩) : EReal)
          * (Wv (Proc.devRef .tc main_v15) : S50000x1.Idx → EReal) (ix2 j 0)
        + (Wv (Proc.devRef .tc main_arg7) : S64.Idx → EReal) (ix1 cc) := by
  after_results_simp
  rw [addf_apply, sliceHi_apply, aggregate_apply, biasRows_apply]

end Cert.Gcn.Ker

end
-- ==== Proof.KerHostMid.lean ====
/-
  The host stretches between the kernel program's two regions, read element by element.

  The first stretch is the first layer's aggregation: the rows of the scaled product gathered by the wrapped sending
  words, scatter-added into zeros by the receiving words, row `j` scaled by the scale array's entry `(j, 0)`, and the
  128-entry bias added. The second is the rectifier: the maximum with an array of zeros. The third stacks the two
  blocks of 64 weight rows, one above the other. None of them writes the index words, the scale array, or the
  second layer's weights and biases, so those read after the stretches what they read before.
-/
import proofs.«124000_j5858335392034_2_alg».proof.Proof.KerHostTail

noncomputable section

open scoped BigOperators

namespace Cert.Gcn.Ker

open Idealize.ShloMosaic Idealize.ShloMosaic.TcCoe Idealize.ShloMosaic.ValueIdx Idealize.SL.Sem Idealize.ShloMosaic.StableHlo
open Cert.KernelIdeal Cert.KernelIdeal.Gen Cert.RowOps

/-! ## One operation at a time, over variable arrays -/

/-- The 128-entry bias spread over the rows, read at `(j, c)`: its entry `c`. -/
theorem biasRows128_apply (b : FVec Ideal S128 .f32) (j : Fin 50000) (c : Fin 128) :
    (broadcastInDim S50000x128 ![0, 1] bcast_S1x128_S50000x128_0_1 (broadcastInDim S1x128 ![1] bcast_S128_S1x128_1 b)
      : FVec Ideal S50000x128 .f32) (ix2 j c) = b (ix1 c) := by
  refine (broadcastInDim_apply _ bcast_S1x128_S50000x128_0_1 _ (ix2 j c) (ix2 0 c) (fun a => match a with
    | ⟨0, _⟩ => by show 0 = if (1 : Nat) = 1 then 0 else j.val; rw [if_pos rfl]
    | ⟨1, _⟩ => by show c.val = if (128 : Nat) = 1 then 0 else c.val; rw [if_neg (by decide)])).trans ?_
  exact broadcastInDim_apply _ bcast_S128_S1x128_1 b (ix2 0 c) (ix1 c) (fun a => match a with
    | ⟨0, _⟩ => by show c.val = if (128 : Nat) = 1 then 0 else c.val; rw [if_neg (by decide)])

/-- The rectifier at an index: the maximum of the element and zero. -/
theorem relu_apply (x : FVec Ideal S50000x128 .f32) (i : S50000x128.Idx) :
    (maximumf x (broadcastInDim S50000x128 ![] bcast_S_S50000x128 (constant (F := Ideal) S_ .f32 0x00000000#32))
      : FVec Ideal S50000x128 .f32) i = max (x i) 0 := by
  rw [maximumf_apply, zeros_apply]

/-- Two blocks of 64 rows stacked, read at `(r, k)`: a row below 64 comes from the first block, any other from the
    second, 64 rows up. -/
theorem stack_apply (a b : FVec Ideal S64x128 .f32) (r k : Fin 128) :
    (concatenate S128x128 0 [⟨S64x128, a⟩, ⟨S64x128, b⟩] concatenates_S64x128_S64x128_S128x128_d0
      : FVec Ideal S128x128 .f32) (ix2 r k)
      = Cert.Gcn.catW (fun r k => a (ix2 r k)) (fun r k => b (ix2 r k)) r k := by
  unfold Cert.Gcn.catW
  by_cases h : r.val < 64
  · rw [dif_pos h]
    exact concatenate_pair_apply_left 0 a b _ (ix2 r k) rfl (ix2 ⟨r.val, h⟩ k) (fun d => match d with
      | ⟨0, _⟩ => rfl
      | ⟨1, _⟩ => rfl)
  · rw [dif_neg h]
    exact concatenate_pair_apply_right 0 a b _ (ix2 r k) rfl rfl (ix2 ⟨r.val - 64, by omega⟩ k)
      (fun d hd => match d, hd with
        | ⟨0, _⟩, hd => absurd rfl hd
        | ⟨1, _⟩, _ => rfl)
      (by show r.val - 64 + 64 = r.val; omega)

/-! ## The hidden layer after the first two stretches -/

/-- The first stretch's result at `(j, cc)`: the aggregation of the array at `main_v16` plus the bias. -/
theorem mid_v31 (Wv : Valuation τ sig (Elt Ideal)) (j : Fin 50000) (cc : Fin 128) :
    (StableHlo.after hostOps1 Wv (Proc.devRef .tc main_v31) : S50000x128.Idx → EReal) (ix2 j cc)
      = (∑ e ∈ Cert.Gcn.into (Wv (Proc.devRef .tc main_v6)) j,
          (Wv (Proc.devRef .tc main_v16) : S50000x128.Idx → EReal)
            (ix2 (Cert.Gcn.srcNode (Wv (Proc.devRef .tc main_v5)) e) cc) : EReal)
          * (Wv (Proc.devRef .tc main_v15) : S50000x1.Idx → EReal) (ix2 j 0)
        + (Wv (Proc.devRef .tc main_arg3) : S128.Idx → EReal) (ix1 cc) := by
  after_results_simp
  rw [addf_apply, aggregate_apply, biasRows128_apply]

/-- The rectified hidden layer at `(j, cc)`, after the first two stretches. -/
theorem mid_v32 (Wv : Valuation τ sig (Elt Ideal)) (j : Fin 50000) (cc : Fin 128) :
    (StableHlo.after hostOps1_1 (StableHlo.after hostOps1 Wv) (Proc.devRef .tc main_v32) : S50000x128.Idx → EReal) (ix2 j cc)
      = max ((∑ e ∈ Cert.Gcn.into (Wv (Proc.devRef .tc main_v6)) j,
          (Wv (Proc.devRef .tc main_v16) : S50000x128.Idx → EReal)
            (ix2 (Cert.Gcn.srcNode (Wv (Proc.devRef .tc main_v5)) e) cc) : EReal)
          * (Wv (Proc.devRef .tc main_v15) : S50000x1.Idx → EReal) (ix2 j 0)
        + (Wv (Proc.devRef .tc main_arg3) : S128.Idx → EReal) (ix1 cc)) 0 := by
  have e : (StableHlo.after hostOps1_1 (StableHlo.after hostOps1 Wv) (Proc.devRef .tc main_v32) : S50000x128.Idx → EReal)
      = maximumf (StableHlo.after hostOps1 Wv (Proc.devRef .tc main_v31) : S50000x128.Idx → EReal)
          (broadcastInDim S50000x128 ![] bcast_S_S50000x128 (constant (F := Ideal) S_ .f32 0x00000000#32)) := by
    generalize StableHlo.after hostOps1 Wv = V
    after_results_simp
    rfl
  rw [e, relu_apply, mid_v31]

/-! ## The stacked weights -/

/-- The third stretch's result at `(r, k)`: the two weight blocks stacked. -/
theorem cat_v33 (Wv : Valuation τ sig (Elt Ideal)) (r k : Fin 128) :
    (StableHlo.after hostOps1_2 Wv (Proc.devRef .tc main_v33) : S128x128.Idx → EReal) (ix2 r k)
      = Cert.Gcn.catW (fun r k => (Wv (Proc.devRef .tc main_arg4) : S64x128.Idx → EReal) (ix2 r k))
          (fun r k => (Wv (Proc.devRef .tc main_arg6) : S64x128.Idx → EReal) (ix2 r k)) r k := by
  after_results_simp
  exact stack_apply _ _ r k

/-! ## What the stretches leave alone

The index words, the scale array and the second layer's weights and biases are written by no operation of the three
stretches (nor are the weights and biases by the last one), so each reads afterwards what it read before. -/

/-- The first two stretches leave `main_v5` alone. -/
theorem keep1_main_v5 (Wv : Valuation τ sig (Elt Ideal)) :
    StableHlo.after hostOps1_1 (StableHlo.after hostOps1 Wv) (Proc.devRef .tc main_v5) = Wv (Proc.devRef .tc main_v5) := by
  after_results_simp

/-- The first two stretches leave `main_v6` alone. -/
theorem keep1_main_v6 (Wv : Valuation τ sig (Elt Ideal)) :
    StableHlo.after hostOps1_1 (StableHlo.after hostOps1 Wv) (Proc.devRef .tc main_v6) = Wv (Proc.devRef .tc main_v6) := by
  after_results_simp

/-- The first two stretches leave `main_v15` alone. -/
theorem keep1_main_v15 (Wv : Valuation τ sig (Elt Ideal)) :
    StableHlo.after hostOps1_1 (StableHlo.after hostOps1 Wv) (Proc.devRef .tc main_v15) = Wv (Proc.devRef .tc main_v15) := by
  after_results_simp

/-- The first two stretches leave `main_arg4` alone. -/
theorem keep1_main_arg4 (Wv : Valuation τ sig (Elt Ideal)) :
    StableHlo.after hostOps1_1 (StableHlo.after hostOps1 Wv) (Proc.devRef .tc main_arg4) = Wv (Proc.devRef .tc main_arg4) := by
  after_results_simp

/-- The first two stretches leave `main_arg5` alone. -/
theorem keep1_main_arg5 (Wv : Valuation τ sig (Elt Ideal)) :
    StableHlo.after hostOps1_1 (StableHlo.after hostOps1 Wv) (Proc.devRef .tc main_arg5) = Wv (Proc.devRef .tc main_arg5) := by
  after_results_simp

/-- The first two stretches leave `main_arg6` alone. -/
theorem keep1_main_arg6 (Wv : Valuation τ sig (Elt Ideal)) :
    StableHlo.after hostOps1_1 (StableHlo.after hostOps1 Wv) (Proc.devRef .tc main_arg6) = Wv (Proc.devRef .tc main_arg6) := by
  after_results_simp

/-- The first two stretches leave `main_arg7` alone. -/
theorem keep1_main_arg7 (Wv : Valuation τ sig (Elt Ideal)) :
    StableHlo.after hostOps1_1 (StableHlo.after hostOps1 Wv) (Proc.devRef .tc main_arg7) = Wv (Proc.devRef .tc main_arg7) := by
  after_results_simp

/-- The stacking stretch leaves `main_v5` alone. -/
theorem keep12_main_v5 (Wv : Valuation τ sig (Elt Ideal)) :
    StableHlo.after hostOps1_2 Wv (Proc.devRef .tc main_v5) = Wv (Proc.devRef .tc main_v5) := by
  after_results_simp

/-- The stacking stretch leaves `main_v6` alone. -/
theorem keep12_main_v6 (Wv : Valuation τ sig (Elt Ideal)) :
    StableHlo.after hostOps1_2 Wv (Proc.devRef .tc main_v6) = Wv (Proc.devRef .tc main_v6) := by
  after_results_simp

/-- The stacking stretch leaves `main_v15` alone. -/
theorem keep12_main_v15 (Wv : Valuation τ sig (Elt Ideal)) :
    StableHlo.after hostOps1_2 Wv (Proc.devRef .tc main_v15) = Wv (Proc.devRef .tc main_v15) := by
  after_results_simp

/-- The stacking stretch leaves `main_arg4` alone. -/
theorem keep12_main_arg4 (Wv : Valuation τ sig (Elt Ideal)) :
    StableHlo.after hostOps1_2 Wv (Proc.devRef .tc main_arg4) = Wv (Proc.devRef .tc main_arg4) := by
  after_results_simp

/-- The stacking stretch leaves `main_arg5` alone. -/
theorem keep12_main_arg5 (Wv : Valuation τ sig (Elt Ideal)) :
    StableHlo.after hostOps1_2 Wv (Proc.devRef .tc main_arg5) = Wv (Proc.devRef .tc main_arg5) := by
  after_results_simp

/-- The stacking stretch leaves `main_arg6` alone. -/
theorem keep12_main_arg6 (Wv : Valuation τ sig (Elt Ideal)) :
    StableHlo.after hostOps1_2 Wv (Proc.devRef .tc main_arg6) = Wv (Proc.devRef .tc main_arg6) := by
  after_results_simp

/-- The stacking stretch leaves `main_arg7` alone. -/
theorem keep12_main_arg7 (Wv : Valuation τ sig (Elt Ideal)) :
    StableHlo.after hostOps1_2 Wv (Proc.devRef .tc main_arg7) = Wv (Proc.devRef .tc main_arg7) := by
  after_results_simp

/-- The last stretch leaves `main_arg4` alone. -/
theorem keep2_main_arg4 (Wv : Valuation τ sig (Elt Ideal)) :
    StableHlo.after hostOps2 Wv (Proc.devRef .tc main_arg4) = Wv (Proc.devRef .tc main_arg4) := by
  after_results_simp

/-- The last stretch leaves `main_arg5` alone. -/
theorem keep2_main_arg5 (Wv : Valuation τ sig (Elt Ideal)) :
    StableHlo.after hostOps2 Wv (Proc.devRef .tc main_arg5) = Wv (Proc.devRef .tc main_arg5) := by
  after_results_simp

/-- The last stretch leaves `main_arg6` alone. -/
theorem keep2_main_arg6 (Wv : Valuation τ sig (Elt Ideal)) :
    StableHlo.after hostOps2 Wv (Proc.devRef .tc main_arg6) = Wv (Proc.devRef .tc main_arg6) := by
  after_results_simp

/-- The last stretch leaves `main_arg7` alone. -/
theorem keep2_main_arg7 (Wv : Valuation τ sig (Elt Ideal)) :
    StableHlo.after hostOps2 Wv (Proc.devRef .tc main_arg7) = Wv (Proc.devRef .tc main_arg7) := by
  after_results_simp

end Cert.Gcn.Ker

end
-- ==== Proof.KerWalk.lean ====
/-
  The buffers that pass through the two regions unchanged: a buffer that is none of a region's four arrays holds at the
  region's exit what it held at its entry, and the scale column, which both regions only read (their third window), ends
  each region as it was entered.
-/
import proofs.«124000_j5858335392034_2_alg».proof.Proof.Gen.KernelIdeal.Frame

set_option maxRecDepth 16384

noncomputable section

namespace Cert.Gcn.Ker

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-! ## Through region 0 -/

/-- `main_v5` is none of region 0's arrays. -/
theorem W4_keep_main_v5 (c : Dev nD) : W4 m ρ c (Proc.devRef .tc main_v5) = W3 m ρ c (Proc.devRef .tc main_v5) :=
  W4_of_ne m ρ c main_v5 (by decide)
/-- `main_v6` is none of region 0's arrays. -/
theorem W4_keep_main_v6 (c : Dev nD) : W4 m ρ c (Proc.devRef .tc main_v6) = W3 m ρ c (Proc.devRef .tc main_v6) :=
  W4_of_ne m ρ c main_v6 (by decide)
/-- `main_arg1` is none of region 0's arrays. -/
theorem W4_keep_main_arg1 (c : Dev nD) : W4 m ρ c (Proc.devRef .tc main_arg1) = W3 m ρ c (Proc.devRef .tc main_arg1) :=
  W4_of_ne m ρ c main_arg1 (by decide)
/-- `main_arg3` is none of region 0's arrays. -/
theorem W4_keep_main_arg3 (c : Dev nD) : W4 m ρ c (Proc.devRef .tc main_arg3) = W3 m ρ c (Proc.devRef .tc main_arg3) :=
  W4_of_ne m ρ c main_arg3 (by decide)
/-- `main_arg4` is none of region 0's arrays. -/
theorem W4_keep_main_arg4 (c : Dev nD) : W4 m ρ c (Proc.devRef .tc main_arg4) = W3 m ρ c (Proc.devRef .tc main_arg4) :=
  W4_of_ne m ρ c main_arg4 (by decide)
/-- `main_arg5` is none of region 0's arrays. -/
theorem W4_keep_main_arg5 (c : Dev nD) : W4 m ρ c (Proc.devRef .tc main_arg5) = W3 m ρ c (Proc.devRef .tc main_arg5) :=
  W4_of_ne m ρ c main_arg5 (by decide)
/-- `main_arg6` is none of region 0's arrays. -/
theorem W4_keep_main_arg6 (c : Dev nD) : W4 m ρ c (Proc.devRef .tc main_arg6) = W3 m ρ c (Proc.devRef .tc main_arg6) :=
  W4_of_ne m ρ c main_arg6 (by decide)
/-- `main_arg7` is none of region 0's arrays. -/
theorem W4_keep_main_arg7 (c : Dev nD) : W4 m ρ c (Proc.devRef .tc main_arg7) = W3 m ρ c (Proc.devRef .tc main_arg7) :=
  W4_of_ne m ρ c main_arg7 (by decide)
/-- The scale column is region 0's third window, an input: its array ends as entered. -/
theorem W4_keep_main_v15 (c : Dev nD) : W4 m ρ c (Proc.devRef .tc main_v15) = W3 m ρ c (Proc.devRef .tc main_v15) :=
  (W4_arr m ρ c 2).trans (((dat0 (V3 m ρ) c).arrAt_in 2 rfl _).trans (A_eq0 (V3 m ρ) c 2))

/-! ## Through region 1 -/

/-- `main_v5` is none of region 1's arrays. -/
theorem W8_keep_main_v5 (c : Dev nD) : W8 m ρ c (Proc.devRef .tc main_v5) = W7 m ρ c (Proc.devRef .tc main_v5) :=
  W8_of_ne m ρ c main_v5 (by decide)
/-- `main_v6` is none of region 1's arrays. -/
theorem W8_keep_main_v6 (c : Dev nD) : W8 m ρ c (Proc.devRef .tc main_v6) = W7 m ρ c (Proc.devRef .tc main_v6) :=
  W8_of_ne m ρ c main_v6 (by decide)
/-- `main_arg5` is none of region 1's arrays. -/
theorem W8_keep_main_arg5 (c : Dev nD) : W8 m ρ c (Proc.devRef .tc main_arg5) = W7 m ρ c (Proc.devRef .tc main_arg5) :=
  W8_of_ne m ρ c main_arg5 (by decide)
/-- `main_arg7` is none of region 1's arrays. -/
theorem W8_keep_main_arg7 (c : Dev nD) : W8 m ρ c (Proc.devRef .tc main_arg7) = W7 m ρ c (Proc.devRef .tc main_arg7) :=
  W8_of_ne m ρ c main_arg7 (by decide)
/-- The scale column is region 1's third window, an input: its array ends as entered. -/
theorem W8_keep_main_v15 (c : Dev nD) : W8 m ρ c (Proc.devRef .tc main_v15) = W7 m ρ c (Proc.devRef .tc main_v15) :=
  (W8_arr m ρ c 2).trans (((dat1 (V7 m ρ) c).arrAt_in 2 rfl _).trans (A_eq1 (V7 m ρ) c 2))

end Cert.Gcn.Ker

end
-- ==== Proof.KerHostFront.lean ====
/-
  The host operations of the kernel program up to the second region's exit, read element by element.

  From the edge words the program builds the 850000 sending words and receiving words (the given ones, then one self
  loop per node), scatter-adds ones by the receiving words into an array of zeros (the degrees), compares the degrees
  with zero, takes their inverse square roots, selects the inverse square root where the degree is positive and zero
  elsewhere, and recasts the flat result as one column. Read at `(i, 0)` that column is the scale `dinv` of node `i`.
  The two arrays of words stay opaque throughout; the degree is read through the flat scatter-add; nothing enumerates
  an index set. The first part is stated for any contents `Wv` of the buffers before the stretches; the second part
  follows the buffers from the launch through the first region, the middle stretches and the second region.
-/
import proofs.«124000_j5858335392034_2_alg».proof.Proof.Gen.KernelIdeal.Frame
import proofs.«124000_j5858335392034_2_alg».proof.Proof.Spec
import proofs.«124000_j5858335392034_2_alg».proof.Proof.KerHostMid
import proofs.«124000_j5858335392034_2_alg».proof.Proof.KerRegions
import proofs.«124000_j5858335392034_2_alg».proof.Proof.KerWalk
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Ker.Front

open Cert.KernelIdeal Cert.KernelIdeal.Gen Cert.Gcn.Ker
open Idealize.ShloMosaic Idealize.ShloMosaic.TcCoe Idealize.SL.Sem Idealize.ShloMosaic.StableHlo
open Idealize.ShloMosaic.ValueIdx Cert.RowOps

/-- The sending words of the 850000 edges: the given ones, then one self loop per node. -/
abbrev src2 (x1 : IVec S2x800000 32) : IVec Cert.Gcn.SE 32 :=
  concatenate S850000 0 [⟨S800000, shapeCast _ (extractStridedSlice S1x800000 ![0, 0] x1 slices_S2x800000_S1x800000_0_0) shapeCasts_S1x800000_S800000⟩, ⟨S50000, iotaInDim S50000 32 0⟩] concatenates_S800000_S50000_S850000_d0
/-- The receiving words of the 850000 edges. -/
abbrev dst2 (x1 : IVec S2x800000 32) : IVec Cert.Gcn.SE 32 :=
  concatenate S850000 0 [⟨S800000, shapeCast _ (extractStridedSlice S1x800000 ![1, 0] x1 slices_S2x800000_S1x800000_1_0) shapeCasts_S1x800000_S800000⟩, ⟨S50000, iotaInDim S50000 32 0⟩] concatenates_S800000_S50000_S850000_d0

/-! ## The degree array and the scale array, as arrays, over any array of receiving words -/

/-- The flat array of zeros. -/
def frontZeros : FVec Ideal S50000 .f32 :=
  broadcastInDim S50000 ![] bcast_S_S50000 (constant (F := Ideal) S_ .f32 0x00000000#32)

/-- The degree array: ones scattered by the receiving words into an array of zeros. -/
def frontDeg (d2 : IVec S850000 32) : FVec Ideal S50000 .f32 :=
  Host.scatterAdd (F := Ideal) scatter_S50000_S850000x1_S850000_n_0_0_1
    frontZeros
    (broadcastInDim S850000x1 ![0] bcast_S850000_S850000x1_0 d2)
    (broadcastInDim S850000 ![] bcast_S_S850000 (constant (F := Ideal) S_ .f32 0x3F800000#32))

/-- The scale array, flat: the inverse square root where the degree is positive, zero elsewhere. -/
def frontDinv (d2 : IVec S850000 32) : FVec Ideal S50000 .f32 :=
  select (cmpf .ogt (frontDeg d2) frontZeros) (Host.rsqrt (frontDeg d2)) frontZeros

/-- The array of zeros reads as zero. -/
theorem frontZeros_apply (i : S50000.Idx) : frontZeros i = 0 := by
  unfold frontZeros
  rw [broadcastInDim_apply _ bcast_S_S50000 _ i ix0 (fun a => a.elim0), constant_apply, Ideal.ofBits_zero_f32]

/-- The edge array of ones reads as one. -/
theorem frontOnes_apply (e : S850000.Idx) :
    broadcastInDim S850000 ![] bcast_S_S850000 (constant (F := Ideal) S_ .f32 0x3F800000#32) e = Cert.Gcn.oneF := by
  rw [broadcastInDim_apply _ bcast_S_S850000 _ e ix0 (fun a => a.elim0), constant_apply]
  unfold Cert.Gcn.oneF
  exact Eq.refl _

/-- An edge array of words carried as a one-column array reads as itself. -/
theorem frontColumn_apply (y : IVec S850000 32) (e : Fin 850000) :
    broadcastInDim S850000x1 ![0] bcast_S850000_S850000x1_0 y (ix2 e 0) = y (ix1 e) :=
  broadcastInDim_apply _ bcast_S850000_S850000x1_0 y (ix2 e 0) (ix1 e) (fun a => match a with
    | ⟨0, _⟩ => by show e.val = if (850000 : Nat) = 1 then 0 else e.val; rw [if_neg (by decide)])

/-- The degree array at node `i` is the degree of `i`. -/
theorem frontDeg_apply (d2 : IVec S850000 32) (i : Fin 50000) : frontDeg d2 (ix1 i) = Cert.Gcn.deg d2 i := by
  unfold frontDeg
  rw [scatterAdd_vec_apply (N := 50000) (E := 850000) scatter_S50000_S850000x1_S850000_n_0_0_1 rfl rfl rfl rfl]
  rw [frontZeros_apply, zero_add]
  unfold Cert.Gcn.deg Cert.Gcn.into
  refine Finset.sum_congr ?_ ?_
  · refine Finset.filter_congr ?_
    intro e _
    rw [frontColumn_apply]
  · intro e _
    exact frontOnes_apply (ix1 e)

/-- The host's inverse square root of an array reads elementwise. -/
theorem front_hostRsqrt_apply {s : Shape} (x : FVec Ideal s .f32) (i : s.Idx) :
    Host.rsqrt x i = FloatOps.hostUnary (F := Ideal) .rsqrt (x i) := rfl

/-- The scale array at node `i` is the scale of `i`. -/
theorem frontDinv_apply (d2 : IVec S850000 32) (i : Fin 50000) : frontDinv d2 (ix1 i) = Cert.Gcn.dinv d2 i := by
  unfold frontDinv Cert.Gcn.dinv
  rw [select_apply, cmpf_apply, front_hostRsqrt_apply, frontZeros_apply, frontDeg_apply]

/-- The flat scale array recast as one column reads at `(i, 0)` as the scale of `i`. -/
theorem frontDinvCol_apply (d2 : IVec S850000 32) (i : Fin 50000) :
    shapeCast S50000x1 (frontDinv d2) shapeCasts_S50000_S50000x1 (ix2 i 0) = Cert.Gcn.dinv d2 i := by
  rw [shapeCast_apply (frontDinv d2) shapeCasts_S50000_S50000x1 (ix2 i 0) (ix1 i)
    (by rewrite [Shape.rowMajor_val_two, Shape.rowMajor_val_one]; show i.val = i.val * 1 + 0; omega)]
  exact frontDinv_apply d2 i

/-! ## The first host stretches, over any contents of the buffers before them -/

section Generic
variable (Wv : Valuation τ sig (Elt Ideal))

theorem front0_v5 : (StableHlo.after (hostOps0 (F := Ideal)) Wv (Proc.devRef .tc main_v5) : S850000.Idx → BitVec 32)
    = src2 (Wv (Proc.devRef .tc main_arg1)) := by
  after_results
  rfl

theorem front0_v6 : (StableHlo.after (hostOps0 (F := Ideal)) Wv (Proc.devRef .tc main_v6) : S850000.Idx → BitVec 32)
    = dst2 (Wv (Proc.devRef .tc main_arg1)) := by
  after_results
  rfl

theorem front0_v12 : (StableHlo.after (hostOps0 (F := Ideal)) Wv (Proc.devRef .tc main_v12) : S50000.Idx → BitVec 1)
    = cmpf .ogt (frontDeg (dst2 (Wv (Proc.devRef .tc main_arg1)))) frontZeros := by
  after_results
  rfl

theorem front0_v13 : (StableHlo.after (hostOps0 (F := Ideal)) Wv (Proc.devRef .tc main_v13) : S50000.Idx → EReal)
    = Host.rsqrt (frontDeg (dst2 (Wv (Proc.devRef .tc main_arg1)))) := by
  after_results
  rfl

theorem front0_cst2 : (StableHlo.after (hostOps0 (F := Ideal)) Wv (Proc.devRef .tc main_cst_2) : S_.Idx → EReal)
    = constant (F := Ideal) S_ .f32 0x00000000#32 := by
  after_results

theorem front01_v14 : (StableHlo.after (hostOps0_1 (F := Ideal)) Wv (Proc.devRef .tc main_v14) : S50000.Idx → EReal)
    = select (Wv (Proc.devRef .tc main_v12)) (Wv (Proc.devRef .tc main_v13))
        (broadcastInDim S50000 ![] bcast_S_S50000 (Wv (Proc.devRef .tc main_cst_2))) := by
  after_results
  rfl

theorem front02_v15 : (StableHlo.after (hostOps0_2 (F := Ideal)) Wv (Proc.devRef .tc main_v15) : S50000x1.Idx → EReal)
    = shapeCast S50000x1 (Wv (Proc.devRef .tc main_v14)) shapeCasts_S50000_S50000x1 := by
  after_results
  rfl

end Generic

/-! ## What the first host stretches write, and what they keep -/

/-- The references the three first stretches write. -/
abbrev frontW0 : List (Ref sig .tc) :=
  [main_v0, main_v1, main_v2, main_v3, main_v4, main_v5, main_v6, main_cst, main_v7, main_cst_0, main_v8, main_v9, main_v10,
    main_cst_1, main_v11, main_v12, main_v13, main_cst_2]
abbrev frontW01 : List (Ref sig .tc) := [main_call0_v0, main_call0_v1, main_v14]
abbrev frontW02 : List (Ref sig .tc) := [main_v15]

theorem frontW0_writes : (hostOps0 (F := Ideal)).Forall fun op =>
    op.writes ⊆ (frontW0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frontW01_writes : (hostOps0_1 (F := Ideal)).Forall fun op =>
    op.writes ⊆ (frontW01.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frontW02_writes : (hostOps0_2 (F := Ideal)).Forall fun op =>
    op.writes ⊆ (frontW02.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  exact List.mem_map_of_mem (by decide)

section Keeps
variable (Wv : Valuation τ sig (Elt Ideal))

theorem front0_keep (r : Ref sig .tc) (h : r ∉ frontW0) :
    StableHlo.after (hostOps0 (F := Ideal)) Wv (Proc.devRef .tc r) = Wv (Proc.devRef .tc r) :=
  StableHlo.after_of_writes_sub hostOps0 _ frontW0_writes h
theorem front01_keep (r : Ref sig .tc) (h : r ∉ frontW01) :
    StableHlo.after (hostOps0_1 (F := Ideal)) Wv (Proc.devRef .tc r) = Wv (Proc.devRef .tc r) :=
  StableHlo.after_of_writes_sub hostOps0_1 _ frontW01_writes h
theorem front02_keep (r : Ref sig .tc) (h : r ∉ frontW02) :
    StableHlo.after (hostOps0_2 (F := Ideal)) Wv (Proc.devRef .tc r) = Wv (Proc.devRef .tc r) :=
  StableHlo.after_of_writes_sub hostOps0_2 _ frontW02_writes h

/-- A buffer none of the three first stretches writes holds what it held before them. -/
theorem front_keep (r : Ref sig .tc) (h0 : r ∉ frontW0) (h1 : r ∉ frontW01) (h2 : r ∉ frontW02) :
    StableHlo.after (hostOps0_2 (F := Ideal)) (StableHlo.after (hostOps0_1 (F := Ideal)) (StableHlo.after (hostOps0 (F := Ideal)) Wv))
      (Proc.devRef .tc r) = Wv (Proc.devRef .tc r) :=
  (front02_keep _ r h2).trans ((front01_keep _ r h1).trans (front0_keep Wv r h0))

/-- After the three first stretches `main_v5` holds the sending words. -/
theorem front_v5 :
    (StableHlo.after (hostOps0_2 (F := Ideal)) (StableHlo.after (hostOps0_1 (F := Ideal)) (StableHlo.after (hostOps0 (F := Ideal)) Wv))
      (Proc.devRef .tc main_v5) : S850000.Idx → BitVec 32) = src2 (Wv (Proc.devRef .tc main_arg1)) :=
  (front02_keep _ main_v5 (by decide)).trans ((front01_keep _ main_v5 (by decide)).trans (front0_v5 Wv))

/-- After the three first stretches `main_v6` holds the receiving words. -/
theorem front_v6 :
    (StableHlo.after (hostOps0_2 (F := Ideal)) (StableHlo.after (hostOps0_1 (F := Ideal)) (StableHlo.after (hostOps0 (F := Ideal)) Wv))
      (Proc.devRef .tc main_v6) : S850000.Idx → BitVec 32) = dst2 (Wv (Proc.devRef .tc main_arg1)) :=
  (front02_keep _ main_v6 (by decide)).trans ((front01_keep _ main_v6 (by decide)).trans (front0_v6 Wv))

/-- After the three first stretches `main_v15` holds the scale array as one column. -/
theorem front_v15_arr :
    (StableHlo.after (hostOps0_2 (F := Ideal)) (StableHlo.after (hostOps0_1 (F := Ideal)) (StableHlo.after (hostOps0 (F := Ideal)) Wv))
      (Proc.devRef .tc main_v15) : S50000x1.Idx → EReal)
      = shapeCast S50000x1 (frontDinv (dst2 (Wv (Proc.devRef .tc main_arg1)))) shapeCasts_S50000_S50000x1 := by
  rw [front02_v15, front01_v14, front0_v12, front0_v13, front0_cst2]
  rfl

/-- After the three first stretches `main_v15` at `(i, 0)` is the scale of node `i`. -/
theorem front_v15 (i : Fin 50000) :
    (StableHlo.after (hostOps0_2 (F := Ideal)) (StableHlo.after (hostOps0_1 (F := Ideal)) (StableHlo.after (hostOps0 (F := Ideal)) Wv))
      (Proc.devRef .tc main_v15) : S50000x1.Idx → EReal) (ix2 i 0)
      = Cert.Gcn.dinv (dst2 (Wv (Proc.devRef .tc main_arg1))) i := by
  rw [front_v15_arr]
  exact frontDinvCol_apply _ i

end Keeps

/-! ## The run's boundaries: the launch, the two regions, the stretches between them -/

/-- The stacking stretch leaves the hidden layer alone. -/
theorem keep12_v32 (Wv : Valuation τ sig (Elt Ideal)) :
    StableHlo.after (hostOps1_2 (F := Ideal)) Wv (Proc.devRef .tc main_v32) = Wv (Proc.devRef .tc main_v32) := by
  after_results_simp

/-- The product of two extended reals. -/
local infixl:70 " *ₑ " => @HMul.hMul EReal EReal EReal instHMul

section Run
variable (m : (ℓ : Loc nD τ sig) → Buf (Elt Ideal) ℓ) (ρ : Dev nD → PrngReg) (c : Dev nD)

/-- The node features, the first layer's weights and bias, and the edge words, as launched. -/
abbrev X : Fin 50000 → Fin 512 → EReal := fun i k => (m ((c : Thread nD τ).loc main_arg0) : S50000x512.Idx → EReal) (ix2 i k)
abbrev W1a : Fin 128 → Fin 512 → EReal := fun r k => (m ((c : Thread nD τ).loc main_arg2) : S128x512.Idx → EReal) (ix2 r k)
abbrev B1 : Fin 128 → EReal := fun r => (m ((c : Thread nD τ).loc main_arg3) : S128.Idx → EReal) (ix1 r)
abbrev E1 : IVec S2x800000 32 := m ((c : Thread nD τ).loc main_arg1)

/-! ### The first region's entry -/

theorem W3_v15 (i : Fin 50000) :
    (W3 (F := Ideal) m ρ c (Proc.devRef .tc main_v15) : S50000x1.Idx → EReal) (ix2 i 0) = Cert.Gcn.dinv (dst2 (E1 m c)) i :=
  front_v15 (W0 m ρ c) i
theorem W3_v5 : (W3 (F := Ideal) m ρ c (Proc.devRef .tc main_v5) : S850000.Idx → BitVec 32) = src2 (E1 m c) :=
  front_v5 (W0 m ρ c)
theorem W3_v6 : (W3 (F := Ideal) m ρ c (Proc.devRef .tc main_v6) : S850000.Idx → BitVec 32) = dst2 (E1 m c) :=
  front_v6 (W0 m ρ c)
/-- No host operation of the first stretches writes an argument. -/
theorem W3_arg0 : W3 (F := Ideal) m ρ c (Proc.devRef .tc main_arg0) = m ((c : Thread nD τ).loc main_arg0) :=
  front_keep (W0 m ρ c) main_arg0 (by decide) (by decide) (by decide)
theorem W3_arg2 : W3 (F := Ideal) m ρ c (Proc.devRef .tc main_arg2) = m ((c : Thread nD τ).loc main_arg2) :=
  front_keep (W0 m ρ c) main_arg2 (by decide) (by decide) (by decide)
theorem W3_arg3 : W3 (F := Ideal) m ρ c (Proc.devRef .tc main_arg3) = m ((c : Thread nD τ).loc main_arg3) :=
  front_keep (W0 m ρ c) main_arg3 (by decide) (by decide) (by decide)
theorem W3_arg4 : W3 (F := Ideal) m ρ c (Proc.devRef .tc main_arg4) = m ((c : Thread nD τ).loc main_arg4) :=
  front_keep (W0 m ρ c) main_arg4 (by decide) (by decide) (by decide)
theorem W3_arg5 : W3 (F := Ideal) m ρ c (Proc.devRef .tc main_arg5) = m ((c : Thread nD τ).loc main_arg5) :=
  front_keep (W0 m ρ c) main_arg5 (by decide) (by decide) (by decide)
theorem W3_arg6 : W3 (F := Ideal) m ρ c (Proc.devRef .tc main_arg6) = m ((c : Thread nD τ).loc main_arg6) :=
  front_keep (W0 m ρ c) main_arg6 (by decide) (by decide) (by decide)
theorem W3_arg7 : W3 (F := Ideal) m ρ c (Proc.devRef .tc main_arg7) = m ((c : Thread nD τ).loc main_arg7) :=
  front_keep (W0 m ρ c) main_arg7 (by decide) (by decide) (by decide)

/-! ### The first region's exit -/

theorem W4_v5 : (W4 (F := Ideal) m ρ c (Proc.devRef .tc main_v5) : S850000.Idx → BitVec 32) = src2 (E1 m c) :=
  (W4_keep_main_v5 m ρ c).trans (W3_v5 m ρ c)
theorem W4_v6 : (W4 (F := Ideal) m ρ c (Proc.devRef .tc main_v6) : S850000.Idx → BitVec 32) = dst2 (E1 m c) :=
  (W4_keep_main_v6 m ρ c).trans (W3_v6 m ρ c)
theorem W4_v15 (i : Fin 50000) :
    (W4 (F := Ideal) m ρ c (Proc.devRef .tc main_v15) : S50000x1.Idx → EReal) (ix2 i 0) = Cert.Gcn.dinv (dst2 (E1 m c)) i :=
  (congrFun (W4_keep_main_v15 m ρ c) (ix2 i 0)).trans (W3_v15 m ρ c i)
theorem W4_arg3 : W4 (F := Ideal) m ρ c (Proc.devRef .tc main_arg3) = m ((c : Thread nD τ).loc main_arg3) :=
  (W4_keep_main_arg3 m ρ c).trans (W3_arg3 m ρ c)
theorem W4_arg4 : W4 (F := Ideal) m ρ c (Proc.devRef .tc main_arg4) = m ((c : Thread nD τ).loc main_arg4) :=
  (W4_keep_main_arg4 m ρ c).trans (W3_arg4 m ρ c)
theorem W4_arg5 : W4 (F := Ideal) m ρ c (Proc.devRef .tc main_arg5) = m ((c : Thread nD τ).loc main_arg5) :=
  (W4_keep_main_arg5 m ρ c).trans (W3_arg5 m ρ c)
theorem W4_arg6 : W4 (F := Ideal) m ρ c (Proc.devRef .tc main_arg6) = m ((c : Thread nD τ).loc main_arg6) :=
  (W4_keep_main_arg6 m ρ c).trans (W3_arg6 m ρ c)
theorem W4_arg7 : W4 (F := Ideal) m ρ c (Proc.devRef .tc main_arg7) = m ((c : Thread nD τ).loc main_arg7) :=
  (W4_keep_main_arg7 m ρ c).trans (W3_arg7 m ρ c)

/-! ### The second region's entry -/

theorem W7_v5 : (W7 (F := Ideal) m ρ c (Proc.devRef .tc main_v5) : S850000.Idx → BitVec 32) = src2 (E1 m c) :=
  (keep12_main_v5 _).trans ((keep1_main_v5 _).trans (W4_v5 m ρ c))
theorem W7_v6 : (W7 (F := Ideal) m ρ c (Proc.devRef .tc main_v6) : S850000.Idx → BitVec 32) = dst2 (E1 m c) :=
  (keep12_main_v6 _).trans ((keep1_main_v6 _).trans (W4_v6 m ρ c))
theorem W7_v15 (i : Fin 50000) :
    (W7 (F := Ideal) m ρ c (Proc.devRef .tc main_v15) : S50000x1.Idx → EReal) (ix2 i 0) = Cert.Gcn.dinv (dst2 (E1 m c)) i :=
  (congrFun ((keep12_main_v15 _).trans (keep1_main_v15 _)) (ix2 i 0)).trans (W4_v15 m ρ c i)
theorem W6_arg4 : W6 (F := Ideal) m ρ c (Proc.devRef .tc main_arg4) = m ((c : Thread nD τ).loc main_arg4) :=
  (keep1_main_arg4 _).trans (W4_arg4 m ρ c)
theorem W6_arg6 : W6 (F := Ideal) m ρ c (Proc.devRef .tc main_arg6) = m ((c : Thread nD τ).loc main_arg6) :=
  (keep1_main_arg6 _).trans (W4_arg6 m ρ c)
theorem W7_arg5 : W7 (F := Ideal) m ρ c (Proc.devRef .tc main_arg5) = m ((c : Thread nD τ).loc main_arg5) :=
  (keep12_main_arg5 _).trans ((keep1_main_arg5 _).trans (W4_arg5 m ρ c))
theorem W7_arg7 : W7 (F := Ideal) m ρ c (Proc.devRef .tc main_arg7) = m ((c : Thread nD τ).loc main_arg7) :=
  (keep12_main_arg7 _).trans ((keep1_main_arg7 _).trans (W4_arg7 m ρ c))

/-- The stacked second-layer weights at the second region's entry. -/
theorem W7_v33 (r k : Fin 128) :
    (W7 (F := Ideal) m ρ c (Proc.devRef .tc main_v33) : S128x128.Idx → EReal) (ix2 r k)
      = Cert.Gcn.catW (fun r k => (m ((c : Thread nD τ).loc main_arg4) : S64x128.Idx → EReal) (ix2 r k))
          (fun r k => (m ((c : Thread nD τ).loc main_arg6) : S64x128.Idx → EReal) (ix2 r k)) r k := by
  have e := cat_v33 (W6 (F := Ideal) m ρ c) r k
  rw [W6_arg4 m ρ c, W6_arg6 m ρ c] at e
  exact e

/-- The hidden layer at the second region's entry, given what the first region leaves in its result array. -/
theorem W7_v32
    (hR0 : ∀ (i : Fin 50000) (cc : Fin 128),
      @Eq EReal ((W4 (F := Ideal) m ρ c (Proc.devRef .tc main_v16) : S50000x128.Idx → EReal) (ix2 i cc))
        ((∑ k : Fin 512, (W3 (F := Ideal) m ρ c (Proc.devRef .tc main_arg0) : S50000x512.Idx → EReal) (ix2 i k)
            *ₑ (W3 (F := Ideal) m ρ c (Proc.devRef .tc main_arg2) : S128x512.Idx → EReal) (ix2 cc k))
          *ₑ (W3 (F := Ideal) m ρ c (Proc.devRef .tc main_v15) : S50000x1.Idx → EReal) (ix2 i (0 : Fin 1))))
    (j : Fin 50000) (cc : Fin 128) :
    (W7 (F := Ideal) m ρ c (Proc.devRef .tc main_v32) : S50000x128.Idx → EReal) (ix2 j cc)
      = Cert.Gcn.kerH (src2 (E1 m c)) (dst2 (E1 m c)) (X m c) (W1a m c) (B1 m c) j cc := by
  have e1 : (W7 (F := Ideal) m ρ c (Proc.devRef .tc main_v32) : S50000x128.Idx → EReal)
      = StableHlo.after hostOps1_1 (StableHlo.after hostOps1 (W4 m ρ c)) (Proc.devRef .tc main_v32) :=
    keep12_v32 _
  have hs : ∀ e : Fin Cert.Gcn.Ne,
      (W4 (F := Ideal) m ρ c (Proc.devRef .tc main_v16) : S50000x128.Idx → EReal)
          (ix2 (Cert.Gcn.srcNode (src2 (E1 m c)) e) cc)
        = (∑ k : Fin 512, X m c (Cert.Gcn.srcNode (src2 (E1 m c)) e) k * W1a m c cc k)
            * Cert.Gcn.dinv (dst2 (E1 m c)) (Cert.Gcn.srcNode (src2 (E1 m c)) e) := by
    intro e
    rw [hR0, W3_arg0, W3_arg2, W3_v15]
  rw [e1, mid_v32, W4_v5, W4_v6, W4_v15, W4_arg3]
  simp only [hs]
  rfl

/-- The same with the first region's result read off its proof. -/
theorem W7_v32_value (j : Fin 50000) (cc : Fin 128) :
    (W7 (F := Ideal) m ρ c (Proc.devRef .tc main_v32) : S50000x128.Idx → EReal) (ix2 j cc)
      = Cert.Gcn.kerH (src2 (E1 m c)) (dst2 (E1 m c)) (X m c) (W1a m c) (B1 m c) j cc :=
  W7_v32 m ρ c (fun i cc => region0_value m ρ c i cc) j cc

/-! ### The second region's exit -/

theorem W8_v5 : (W8 (F := Ideal) m ρ c (Proc.devRef .tc main_v5) : S850000.Idx → BitVec 32) = src2 (E1 m c) :=
  (W8_keep_main_v5 m ρ c).trans (W7_v5 m ρ c)
theorem W8_v6 : (W8 (F := Ideal) m ρ c (Proc.devRef .tc main_v6) : S850000.Idx → BitVec 32) = dst2 (E1 m c) :=
  (W8_keep_main_v6 m ρ c).trans (W7_v6 m ρ c)
theorem W8_v15 (i : Fin 50000) :
    (W8 (F := Ideal) m ρ c (Proc.devRef .tc main_v15) : S50000x1.Idx → EReal) (ix2 i 0) = Cert.Gcn.dinv (dst2 (E1 m c)) i :=
  (congrFun (W8_keep_main_v15 m ρ c) (ix2 i 0)).trans (W7_v15 m ρ c i)
theorem W8_arg5 : W8 (F := Ideal) m ρ c (Proc.devRef .tc main_arg5) = m ((c : Thread nD τ).loc main_arg5) :=
  (W8_keep_main_arg5 m ρ c).trans (W7_arg5 m ρ c)
theorem W8_arg7 : W8 (F := Ideal) m ρ c (Proc.devRef .tc main_arg7) = m ((c : Thread nD τ).loc main_arg7) :=
  (W8_keep_main_arg7 m ρ c).trans (W7_arg7 m ρ c)

end Run

end Cert.Gcn.Ker.Front

end
-- ==== Proof.KerValue.lean ====
/-
  The kernel's two results, read index by index.

  The run's buffer contents are a chain of boundaries: the launch memory, three host stretches (the index arrays, the
  degrees and the scale column), the first pallas_call, three host stretches (one aggregation, the bias and the maximum
  with zero; the two output weight blocks stacked), the second pallas_call, and the last stretch (one aggregation, the
  two column halves, their biases). Walking a result back through the chain — a pallas_call's output is a dense product
  with each row scaled (Proof/KerRegions.lean), a host stretch is an aggregation (Proof/KerHostMid.lean,
  KerHostTail.lean), the scale column is the inverse square root of the degrees and every other buffer is carried along
  unchanged (Proof/KerHostFront.lean, KerWalk.lean) — gives the stacked-output formula of Proof/Spec.lean at the
  argument arrays, plus the bias.
-/
import proofs.«124000_j5858335392034_2_alg».proof.Proof.Spec
import proofs.«124000_j5858335392034_2_alg».proof.Proof.KerRegions
import proofs.«124000_j5858335392034_2_alg».proof.Proof.KerHostFront
import proofs.«124000_j5858335392034_2_alg».proof.Proof.KerHostMid

noncomputable section

open scoped BigOperators

namespace Cert.Gcn.Ker

open Cert.KernelIdeal Cert.KernelIdeal.Gen
open Idealize.ShloMosaic Idealize.ShloMosaic.TcCoe Idealize.SL.Sem Idealize.ShloMosaic.StableHlo
open Idealize.ShloMosaic.ValueIdx Cert.RowOps Cert.Gcn.Ker.Front

variable (m : (ℓ : Loc nD τ sig) → Buf (Elt Ideal) ℓ) (ρ : Dev nD → PrngReg) (c : Dev nD)

/-- The first output weight block, as rows. -/
abbrev Wmu : Fin 64 → Fin 128 → EReal := fun r k => (m ((c : Thread nD τ).loc main_arg4) : S64x128.Idx → EReal) (ix2 r k)
/-- The second output weight block, as rows. -/
abbrev Wls : Fin 64 → Fin 128 → EReal := fun r k => (m ((c : Thread nD τ).loc main_arg6) : S64x128.Idx → EReal) (ix2 r k)

/-- The second pallas_call's output: the hidden layer times the stacked weights, each row scaled. -/
theorem W8_v34 (i : Fin 50000) (cc : Fin 128) :
    (W8 (F := Ideal) m ρ c (Proc.devRef .tc main_v34) : S50000x128.Idx → EReal) (ix2 i cc)
      = Cert.Gcn.prod (Cert.Gcn.kerH (src2 (E1 m c)) (dst2 (E1 m c)) (X m c) (W1a m c) (B1 m c))
          (Cert.Gcn.catW (Wmu m c) (Wls m c)) i cc * Cert.Gcn.dinv (dst2 (E1 m c)) i := by
  refine (region1_value m ρ c i cc).trans ?_
  rw [Front.W7_v15 m ρ c i]
  refine congrArg (fun t : EReal => t * Cert.Gcn.dinv (dst2 (E1 m c)) i) ?_
  unfold Cert.Gcn.prod
  exact Finset.sum_congr rfl fun k _ => by rw [Front.W7_v32_value m ρ c i k, Front.W7_v33 m ρ c cc k]

/-- The first result at `(j, cc)`: the stacked output's column `cc`, plus the first output bias. -/
theorem out0_apply (j : Fin 50000) (cc : Fin 64) :
    (W9 (F := Ideal) m ρ c (Proc.devRef .tc main_v50) : S50000x64.Idx → EReal) (ix2 j cc)
      = Cert.Gcn.kerOut (src2 (E1 m c)) (dst2 (E1 m c)) (X m c) (W1a m c) (B1 m c)
          (Cert.Gcn.catW (Wmu m c) (Wls m c)) j ⟨cc.val, by omega⟩
        + (m ((c : Thread nD τ).loc main_arg5) : S64.Idx → EReal) (ix1 cc) := by
  have h := tail_v50 (W8 m ρ c) j cc
  rw [Front.W8_v6 m ρ c, Front.W8_v5 m ρ c, Front.W8_v15 m ρ c j, Front.W8_arg5 m ρ c] at h
  refine h.trans ?_
  unfold Cert.Gcn.kerOut Cert.Gcn.kerAgg
  refine congrArg (fun t : EReal => t * Cert.Gcn.dinv (dst2 (E1 m c)) j
    + (m ((c : Thread nD τ).loc main_arg5) : S64.Idx → EReal) (ix1 cc)) ?_
  exact Finset.sum_congr rfl fun e _ => W8_v34 m ρ c _ _

/-- The second result at `(j, cc)`: the stacked output's column `cc + 64`, plus the second output bias. -/
theorem out1_apply (j : Fin 50000) (cc : Fin 64) :
    (W9 (F := Ideal) m ρ c (Proc.devRef .tc main_v54) : S50000x64.Idx → EReal) (ix2 j cc)
      = Cert.Gcn.kerOut (src2 (E1 m c)) (dst2 (E1 m c)) (X m c) (W1a m c) (B1 m c)
          (Cert.Gcn.catW (Wmu m c) (Wls m c)) j ⟨cc.val + 64, by omega⟩
        + (m ((c : Thread nD τ).loc main_arg7) : S64.Idx → EReal) (ix1 cc) := by
  have h := tail_v54 (W8 m ρ c) j cc
  rw [Front.W8_v6 m ρ c, Front.W8_v5 m ρ c, Front.W8_v15 m ρ c j, Front.W8_arg7 m ρ c] at h
  refine h.trans ?_
  unfold Cert.Gcn.kerOut Cert.Gcn.kerAgg
  refine congrArg (fun t : EReal => t * Cert.Gcn.dinv (dst2 (E1 m c)) j
    + (m ((c : Thread nD τ).loc main_arg7) : S64.Idx → EReal) (ix1 cc)) ?_
  exact Finset.sum_congr rfl fun e _ => W8_v34 m ρ c _ _

end Cert.Gcn.Ker

end
-- ==== Proof.LibVecGather.lean ====
/-
  A flat array read by index. The StableHLO gather `x[idx]` for `x : [N]` and `idx : [E]` (carried as `[E, 1]`):
  element `(e)` of the result is `x` at position `idx[e]`, read as a signed integer and clamped into `[0, N − 1]`.

  The statement is over abstract extents `N`, `E`; nothing here enumerates an index set.
-/
import Idealize.ShloMosaic.PureOps.Ideal
import Idealize.ShloMosaic.Lib.ValueIdx
import proofs.«124000_j5858335392034_2_alg».proof.Proof.LibRowOps

noncomputable section

namespace Cert.VecGather

open Idealize.ShloMosaic Idealize.ShloMosaic.ValueIdx Cert.RowOps

section Gather
variable {α : Type}

/-- The dimension numbers of a gather from a flat array: operand `[N]`, start indices `[E, 1]`, result `[E]`; the result
    has no offset axis, the operand's one axis is collapsed and is the one the start index names, slices have one
    element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The one coordinate of the operand index that result index `(e)` reads: the clamped start index. -/
theorem vecGather_operandIdx_zero {N E : Nat} (hN : 0 < N)
    (wf : GatherDims.WF ⟨1, ![N]⟩ ⟨2, ![E, 1]⟩ ⟨1, ![E]⟩ [] [0] [] [0] [] 1 ![1])
    (idx : IVec ⟨2, ![E, 1]⟩ 32) (e : Fin E) :
    (vecGatherDims N E wf).operandIdx (ix1 e) idx 0 = gatherRow N hN (idx (ix2 e 0)) := by
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather from a flat array at `(e)`, for the literal dimension numbers `vecGatherDims`. -/
theorem gather_vecDims_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGatherDims N E wf) x idx (ix1 e) = x (ix1 (gatherRow N hN (idx (ix2 e 0)))) := by
  unfold Host.gather
  refine congrArg x ((eq_ix1 _).trans ?_)
  rw [vecGather_operandIdx_zero hN wf idx e]
  rfl

/-- THE GATHER FROM A FLAT ARRAY READ AT `(e)`: for any dimension numbers `d` whose fields are those of such a gather
    (each hypothesis is `rfl` at a program's record), the result at `(e)` is the operand at position
    `gatherRow N _ (idx[e])` — the start index read signed and clamped into `[0, N − 1]`. -/
theorem gather_vec_apply {N E : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ 32) (e : Fin E) :
    Host.gather d x idx (ix1 e) = x (ix1 (gatherRow N hN (idx (ix2 e 0)))) := by
  obtain ⟨od, cd, ob, sb, sm, iv, ss, wf⟩ := d
  simp only at hod hcd hob hsb hsm hiv hss
  subst hod hcd hob hsb hsm hiv hss
  exact gather_vecDims_apply hN wf x idx e

end Gather

end Cert.VecGather

end
-- ==== Proof.RefValue.lean ====
/-
  The reference program read index by index: each of its two results, at node `j` and column `c`, is the
  specification's output layer `Cert.Gcn.refOut` of the program's arguments.

  The program builds the 850000 sending and receiving words (the edge list's two rows, each followed by one word per
  node), counts the edges into each node by a scatter-add of ones (the degree), takes the inverse square root of a
  positive degree (the scale), and looks the scale up at both ends of every edge through the wrapped, clamped index
  words; the product of the two is the edge's weight. A layer multiplies the node rows by the weight rows, reads for
  each edge the row of its sending node, multiplies it by the edge's weight and sums it into the receiving node, then
  adds the bias (and, for the hidden layer, takes the maximum with zero). The program computes the words, the degree,
  the scale and the weights three times, once per layer, by the same operations: the later copies are the first by
  definition. Every statement is at symbolic indices; nothing is evaluated over the nodes or the edges.
-/
import proofs.«124000_j5858335392034_2_alg».proof.Proof.RefReadP
import proofs.«124000_j5858335392034_2_alg».proof.Proof.Spec
import proofs.«124000_j5858335392034_2_alg».proof.Proof.LibRowOps
import proofs.«124000_j5858335392034_2_alg».proof.Proof.LibVecGather

noncomputable section

open scoped BigOperators

namespace Cert.Gcn.Ref

open Idealize.ShloMosaic Idealize.ShloMosaic.ValueIdx Cert.RowOps Cert.VecGather Cert.ReferenceIdeal
  Cert.ReferenceIdeal.Read

/-- The sending words of the 850000 edges: the first row of the edge list, then one word per node. -/
abbrev src2 (x1 : (⟨S2x800000, .i32⟩ : BufTy).Contents (Elt Ideal)) : IVec Cert.Gcn.SE 32 :=
  val_main_v5 (F := Ideal) x1

/-- The receiving words of the 850000 edges: the second row of the edge list, then one word per node. -/
abbrev dst2 (x1 : (⟨S2x800000, .i32⟩ : BufTy).Contents (Elt Ideal)) : IVec Cert.Gcn.SE 32 :=
  val_main_v6 (F := Ideal) x1

/-- Two rank-1 indices with the same coordinate are equal. -/
local macro "idx1_ext" : tactic => `(tactic| (funext a; match a with | ⟨0, _⟩ => rfl))
/-- Two rank-2 indices with the same coordinates are equal. -/
local macro "idx2_ext" : tactic => `(tactic| (funext a; match a with | ⟨0, _⟩ => rfl | ⟨1, _⟩ => rfl))

section Edges

variable (x1 : (⟨S2x800000, .i32⟩ : BufTy).Contents (Elt Ideal))

/-! ## The degree and the scale -/

/-- The receiving words, carried as a column, read at edge `e`. -/
theorem v9_at (e : Fin 850000) : val_main_v9 (F := Ideal) x1 (ix2 e 0) = dst2 x1 (ix1 e) := by
  rw [val_main_v9_apply]
  exact congrArg (val_main_v6 (F := Ideal) x1) (show idx_main_v9 (ix2 e 0) = ix1 e by idx1_ext)

/-- The degree array at node `j`: a one for each edge into `j`. -/
theorem deg_apply (j : Fin 50000) : val_main_v10 (F := Ideal) x1 (ix1 j) = Cert.Gcn.deg (dst2 x1) j := by
  unfold val_main_v10
  rw [scatterAdd_vec_apply scatter_S50000_S850000x1_S850000_n_0_0_1 rfl rfl rfl rfl]
  rw [val_main_v8_apply, val_main_cst_0_apply, Ideal.ofBits_def, Ideal.ofBits_zero_f32, zero_add]
  unfold Cert.Gcn.deg Cert.Gcn.into
  refine Finset.sum_congr (Finset.filter_congr fun e _ => by rw [v9_at]) (fun e _ => ?_)
  rw [val_main_v7_apply, val_main_cst_apply]
  rfl

/-- The scale array at node `j`. -/
theorem dinv_apply (j : Fin 50000) : val_main_v14 (F := Ideal) x1 (ix1 j) = Cert.Gcn.dinv (dst2 x1) j := by
  rw [val_main_v14_apply, val_main_v12_apply, val_main_v13_apply, val_main_v11_apply, val_main_cst_1_apply,
    val_main_call0_v1_apply, val_main_call0_v0_apply, val_main_cst_2_apply, deg_apply, Ideal.ofBits_def,
    Ideal.ofBits_zero_f32]
  rfl

/-! ## The wrapped index words -/

/-- The sending words, wrapped and carried as a column, read at edge `e`. -/
theorem v20_at (e : Fin 850000) :
    val_main_v20 (F := Ideal) x1 (ix2 e 0) = Cert.Gcn.wrap (src2 x1 (ix1 e)) := by
  rw [val_main_v20_apply, show idx_main_v20 (ix2 e 0) = ix1 e by idx1_ext, val_main_v19_apply, val_main_v16_apply,
    val_main_v18_apply, val_main_v15_apply, val_main_c_apply, val_main_v17_apply, val_main_c_3_apply]
  rfl

/-- The receiving words, wrapped and carried as a column, read at edge `e`. -/
theorem v27_at (e : Fin 850000) :
    val_main_v27 (F := Ideal) x1 (ix2 e 0) = Cert.Gcn.wrap (dst2 x1 (ix1 e)) := by
  rw [val_main_v27_apply, show idx_main_v27 (ix2 e 0) = ix1 e by idx1_ext, val_main_v26_apply, val_main_v23_apply,
    val_main_v25_apply, val_main_v22_apply, val_main_c_4_apply, val_main_v24_apply, val_main_c_5_apply]
  rfl

/-- The sending words wrapped a second time (for the gather of rows), read at edge `e`. -/
theorem v37_at (e : Fin 850000) :
    val_main_v37 (F := Ideal) x1 (ix2 e 0) = Cert.Gcn.wrap (src2 x1 (ix1 e)) := by
  rw [val_main_v37_apply, show idx_main_v37 (ix2 e 0) = ix1 e by idx1_ext, val_main_v36_apply, val_main_v33_apply,
    val_main_v35_apply, val_main_v32_apply, val_main_c_6_apply, val_main_v34_apply, val_main_c_7_apply]
  rfl

/-- The receiving words carried as a column for the scatter of rows, read at edge `e`. -/
theorem v43_at (e : Fin 850000) : val_main_v43 (F := Ideal) x1 (ix2 e 0) = dst2 x1 (ix1 e) := by
  rw [val_main_v43_apply]
  exact congrArg (val_main_v6 (F := Ideal) x1) (show idx_main_v43 (ix2 e 0) = ix1 e by idx1_ext)

/-! ## The two scale look-ups and their product -/

/-- The scale looked up at the sending end of edge `e`. -/
theorem v21_at (e : Fin 850000) :
    val_main_v21 (F := Ideal) x1 (ix1 e) = Cert.Gcn.dinv (dst2 x1) (Cert.Gcn.srcNode (src2 x1) e) := by
  unfold val_main_v21
  rw [gather_vec_apply Cert.Gcn.Nn_pos gather_S50000_S850000x1_S850000_n_0_n_n_0_1_1 rfl rfl rfl rfl rfl rfl rfl,
    v20_at, dinv_apply]
  rfl

/-- The scale looked up at the receiving end of edge `e`. -/
theorem v28_at (e : Fin 850000) :
    val_main_v28 (F := Ideal) x1 (ix1 e) = Cert.Gcn.dinv (dst2 x1) (Cert.Gcn.dstNode (dst2 x1) e) := by
  unfold val_main_v28
  rw [gather_vec_apply Cert.Gcn.Nn_pos gather_S50000_S850000x1_S850000_n_0_n_n_0_1_1 rfl rfl rfl rfl rfl rfl rfl,
    v27_at, dinv_apply]
  rfl

/-- The weight of edge `e`, carried as a column: the product of the two ends' scales. -/
theorem v39_at (e : Fin 850000) :
    val_main_v39 (F := Ideal) x1 (ix2 e 0)
      = Cert.Gcn.dinv (dst2 x1) (Cert.Gcn.srcNode (src2 x1) e)
        * Cert.Gcn.dinv (dst2 x1) (Cert.Gcn.dstNode (dst2 x1) e) := by
  rw [val_main_v39_apply, show idx_main_v39 (ix2 e 0) = ix1 e by idx1_ext, val_main_v29_apply, v21_at, v28_at]
  rfl

end Edges

section Terms

open Cert.ReferenceIdeal.Gen

variable (x1 : (⟨S2x800000, .i32⟩ : BufTy).Contents (Elt Ideal))

/-! ## The edge words as one term of the edge list -/

/-- The sending words: the edge list's first row, flattened, followed by the node numbers. -/
theorem src2_def :
    src2 x1 = concatenate S850000 0
      [⟨S800000, shapeCast _ (extractStridedSlice S1x800000 ![0, 0] x1 slices_S2x800000_S1x800000_0_0)
          shapeCasts_S1x800000_S800000⟩,
        ⟨S50000, iotaInDim S50000 32 0⟩] concatenates_S800000_S50000_S850000_d0 := rfl

/-- The receiving words: the edge list's second row, flattened, followed by the node numbers. -/
theorem dst2_def :
    dst2 x1 = concatenate S850000 0
      [⟨S800000, shapeCast _ (extractStridedSlice S1x800000 ![1, 0] x1 slices_S2x800000_S1x800000_1_0)
          shapeCasts_S1x800000_S800000⟩,
        ⟨S50000, iotaInDim S50000 32 0⟩] concatenates_S800000_S50000_S850000_d0 := rfl

end Terms

section Nodes

variable (x0 : (⟨S50000x512, .f32⟩ : BufTy).Contents (Elt Ideal))
  (x1 : (⟨S2x800000, .i32⟩ : BufTy).Contents (Elt Ideal))
  (x2 : (⟨S128x512, .f32⟩ : BufTy).Contents (Elt Ideal))
  (x3 : (⟨S128, .f32⟩ : BufTy).Contents (Elt Ideal))

/-! ## The hidden layer -/

/-- The first dense product at `(i, c)`. -/
theorem v31_at (i : Fin 50000) (c : Fin 128) :
    val_main_v31 (F := Ideal) x0 x2 (ix2 i c)
      = Cert.Gcn.prod (fun i k => x0 (ix2 i k)) (fun r k => x2 (ix2 r k)) i c := by
  rw [val_main_v31_apply]
  unfold Cert.Gcn.prod
  refine Finset.sum_congr rfl fun k _ => ?_
  rw [val_main_v30_apply, show lidx_main_v31 (ix2 i c) k = ix2 i k by idx2_ext,
    show idx_main_v30 (ridx_main_v31 (ix2 i c) k) = ix2 c k by idx2_ext]

/-- The row of the first product that edge `e` reads, at column `c`. -/
theorem v38_at (e : Fin 850000) (c : Fin 128) :
    val_main_v38 (F := Ideal) x0 x1 x2 (ix2 e c)
      = Cert.Gcn.prod (fun i k => x0 (ix2 i k)) (fun r k => x2 (ix2 r k)) (Cert.Gcn.srcNode (src2 x1) e) c := by
  unfold val_main_v38
  rw [gather_rows_apply Cert.Gcn.Nn_pos gather_S50000x128_S850000x1_S850000x128_1_0_n_n_0_1_1128
    rfl rfl rfl rfl rfl rfl rfl, v37_at, v31_at]
  rfl

/-- The first aggregation at `(j, c)`. -/
theorem v44_at (j : Fin 50000) (c : Fin 128) :
    val_main_v44 (F := Ideal) x0 x1 x2 (ix2 j c)
      = Cert.Gcn.refAgg (src2 x1) (dst2 x1)
          (Cert.Gcn.prod (fun i k => x0 (ix2 i k)) (fun r k => x2 (ix2 r k))) j c := by
  unfold val_main_v44
  rw [scatterAdd_rows_apply scatter_S50000x128_S850000x1_S850000x128_1_0_0_1 rfl rfl rfl rfl]
  rw [val_main_v42_apply, val_main_cst_8_apply, Ideal.ofBits_def, Ideal.ofBits_zero_f32, zero_add]
  unfold Cert.Gcn.refAgg Cert.Gcn.into
  refine Finset.sum_congr (Finset.filter_congr fun e _ => by rw [v43_at]) (fun e _ => ?_)
  rw [val_main_v41_apply, v38_at, val_main_v40_apply, show idx_main_v40 (ix2 e c) = ix2 e 0 by idx2_ext, v39_at]
  rfl

/-- The hidden layer at `(j, c)`. -/
theorem v48_at (j : Fin 50000) (c : Fin 128) :
    val_main_v48 (F := Ideal) x0 x1 x2 x3 (ix2 j c)
      = Cert.Gcn.refH (src2 x1) (dst2 x1) (fun i k => x0 (ix2 i k)) (fun r k => x2 (ix2 r k))
          (fun r => x3 (ix1 r)) j c := by
  rw [val_main_v48_apply, val_main_v47_apply, v44_at, val_main_v46_apply, val_main_v45_apply,
    show idx_main_v45 (idx_main_v46 (ix2 j c)) = ix1 c by idx1_ext, val_main_call1_v0_apply,
    val_main_call1_cst_apply, Ideal.ofBits_def, Ideal.ofBits_zero_f32]
  rfl

end Nodes

section Out0

variable (x0 : (⟨S50000x512, .f32⟩ : BufTy).Contents (Elt Ideal))
  (x1 : (⟨S2x800000, .i32⟩ : BufTy).Contents (Elt Ideal))
  (x2 : (⟨S128x512, .f32⟩ : BufTy).Contents (Elt Ideal))
  (x3 : (⟨S128, .f32⟩ : BufTy).Contents (Elt Ideal))
  (x4 : (⟨S64x128, .f32⟩ : BufTy).Contents (Elt Ideal))
  (x5 : (⟨S64, .f32⟩ : BufTy).Contents (Elt Ideal))

/-! ## The first output layer -/

/-- The edge words, the degree, the scale and the edge weights are computed again for this layer by the same
    operations on the same edge list: the arrays are the first layer's. -/
theorem v84_eq : val_main_v84 (F := Ideal) x1 = val_main_v39 (F := Ideal) x1 := rfl
theorem v82_eq : val_main_v82 (F := Ideal) x1 = val_main_v37 (F := Ideal) x1 := rfl
theorem v88_eq : val_main_v88 (F := Ideal) x1 = val_main_v43 (F := Ideal) x1 := rfl

/-- The dense product of the hidden layer with this layer's weights at `(i, c)`. -/
theorem v76_at (i : Fin 50000) (c : Fin 64) :
    val_main_v76 (F := Ideal) x0 x1 x2 x3 x4 (ix2 i c)
      = Cert.Gcn.prod (Cert.Gcn.refH (src2 x1) (dst2 x1) (fun i k => x0 (ix2 i k)) (fun r k => x2 (ix2 r k))
          (fun r => x3 (ix1 r))) (fun r k => x4 (ix2 r k)) i c := by
  rw [val_main_v76_apply]
  unfold Cert.Gcn.prod
  refine Finset.sum_congr rfl fun k _ => ?_
  rw [val_main_v75_apply, show lidx_main_v76 (ix2 i c) k = ix2 i k by idx2_ext,
    show idx_main_v75 (ridx_main_v76 (ix2 i c) k) = ix2 c k by idx2_ext, v48_at]

/-- The row of that product that edge `e` reads, at column `c`. -/
theorem v83_at (e : Fin 850000) (c : Fin 64) :
    val_main_v83 (F := Ideal) x0 x1 x2 x3 x4 (ix2 e c)
      = Cert.Gcn.prod (Cert.Gcn.refH (src2 x1) (dst2 x1) (fun i k => x0 (ix2 i k)) (fun r k => x2 (ix2 r k))
          (fun r => x3 (ix1 r))) (fun r k => x4 (ix2 r k)) (Cert.Gcn.srcNode (src2 x1) e) c := by
  unfold val_main_v83
  rw [gather_rows_apply Cert.Gcn.Nn_pos gather_S50000x64_S850000x1_S850000x64_1_0_n_n_0_1_164
    rfl rfl rfl rfl rfl rfl rfl, v82_eq, v37_at, v76_at]
  rfl

/-- This layer's aggregation at `(j, c)`. -/
theorem v89_at (j : Fin 50000) (c : Fin 64) :
    val_main_v89 (F := Ideal) x0 x1 x2 x3 x4 (ix2 j c)
      = Cert.Gcn.refAgg (src2 x1) (dst2 x1)
          (Cert.Gcn.prod (Cert.Gcn.refH (src2 x1) (dst2 x1) (fun i k => x0 (ix2 i k)) (fun r k => x2 (ix2 r k))
            (fun r => x3 (ix1 r))) (fun r k => x4 (ix2 r k))) j c := by
  unfold val_main_v89
  rw [scatterAdd_rows_apply scatter_S50000x64_S850000x1_S850000x64_1_0_0_1 rfl rfl rfl rfl]
  rw [val_main_v87_apply, val_main_cst_19_apply, Ideal.ofBits_def, Ideal.ofBits_zero_f32, zero_add]
  unfold Cert.Gcn.refAgg Cert.Gcn.into
  refine Finset.sum_congr (Finset.filter_congr fun e _ => by rw [v88_eq, v43_at]) (fun e _ => ?_)
  rw [val_main_v86_apply, v83_at, val_main_v85_apply,
    show idx_main_v85 (ix2 e c) = ix2 e 0 by idx2_ext, v84_eq, v39_at]
  rfl

/-- THE FIRST RESULT at `(j, c)` is the reference's first output layer. -/
theorem out0_apply (j : Fin 50000) (c : Fin 64) :
    val_main_v92 (F := Ideal) x0 x1 x2 x3 x4 x5 (ix2 j c)
      = Cert.Gcn.refOut (src2 x1) (dst2 x1) (fun i k => x0 (ix2 i k)) (fun r k => x2 (ix2 r k))
          (fun r => x3 (ix1 r)) (fun r k => x4 (ix2 r k)) (fun r => x5 (ix1 r)) j c := by
  rw [val_main_v92_apply, v89_at, val_main_v91_apply, val_main_v90_apply,
    show idx_main_v90 (idx_main_v91 (ix2 j c)) = ix1 c by idx1_ext]
  rfl

end Out0

section Out1

variable (x0 : (⟨S50000x512, .f32⟩ : BufTy).Contents (Elt Ideal))
  (x1 : (⟨S2x800000, .i32⟩ : BufTy).Contents (Elt Ideal))
  (x2 : (⟨S128x512, .f32⟩ : BufTy).Contents (Elt Ideal))
  (x3 : (⟨S128, .f32⟩ : BufTy).Contents (Elt Ideal))
  (x6 : (⟨S64x128, .f32⟩ : BufTy).Contents (Elt Ideal))
  (x7 : (⟨S64, .f32⟩ : BufTy).Contents (Elt Ideal))

/-! ## The second output layer -/

/-- The edge words, the degree, the scale and the edge weights are computed again for this layer by the same
    operations on the same edge list: the arrays are the first layer's. -/
theorem v128_eq : val_main_v128 (F := Ideal) x1 = val_main_v39 (F := Ideal) x1 := rfl
theorem v126_eq : val_main_v126 (F := Ideal) x1 = val_main_v37 (F := Ideal) x1 := rfl
theorem v132_eq : val_main_v132 (F := Ideal) x1 = val_main_v43 (F := Ideal) x1 := rfl

/-- The dense product of the hidden layer with this layer's weights at `(i, c)`. -/
theorem v120_at (i : Fin 50000) (c : Fin 64) :
    val_main_v120 (F := Ideal) x0 x1 x2 x3 x6 (ix2 i c)
      = Cert.Gcn.prod (Cert.Gcn.refH (src2 x1) (dst2 x1) (fun i k => x0 (ix2 i k)) (fun r k => x2 (ix2 r k))
          (fun r => x3 (ix1 r))) (fun r k => x6 (ix2 r k)) i c := by
  rw [val_main_v120_apply]
  unfold Cert.Gcn.prod
  refine Finset.sum_congr rfl fun k _ => ?_
  rw [val_main_v119_apply, show lidx_main_v120 (ix2 i c) k = ix2 i k by idx2_ext,
    show idx_main_v119 (ridx_main_v120 (ix2 i c) k) = ix2 c k by idx2_ext, v48_at]

/-- The row of that product that edge `e` reads, at column `c`. -/
theorem v127_at (e : Fin 850000) (c : Fin 64) :
    val_main_v127 (F := Ideal) x0 x1 x2 x3 x6 (ix2 e c)
      = Cert.Gcn.prod (Cert.Gcn.refH (src2 x1) (dst2 x1) (fun i k => x0 (ix2 i k)) (fun r k => x2 (ix2 r k))
          (fun r => x3 (ix1 r))) (fun r k => x6 (ix2 r k)) (Cert.Gcn.srcNode (src2 x1) e) c := by
  unfold val_main_v127
  rw [gather_rows_apply Cert.Gcn.Nn_pos gather_S50000x64_S850000x1_S850000x64_1_0_n_n_0_1_164
    rfl rfl rfl rfl rfl rfl rfl, v126_eq, v37_at, v120_at]
  rfl

/-- This layer's aggregation at `(j, c)`. -/
theorem v133_at (j : Fin 50000) (c : Fin 64) :
    val_main_v133 (F := Ideal) x0 x1 x2 x3 x6 (ix2 j c)
      = Cert.Gcn.refAgg (src2 x1) (dst2 x1)
          (Cert.Gcn.prod (Cert.Gcn.refH (src2 x1) (dst2 x1) (fun i k => x0 (ix2 i k)) (fun r k => x2 (ix2 r k))
            (fun r => x3 (ix1 r))) (fun r k => x6 (ix2 r k))) j c := by
  unfold val_main_v133
  rw [scatterAdd_rows_apply scatter_S50000x64_S850000x1_S850000x64_1_0_0_1 rfl rfl rfl rfl]
  rw [val_main_v131_apply, val_main_cst_30_apply, Ideal.ofBits_def, Ideal.ofBits_zero_f32, zero_add]
  unfold Cert.Gcn.refAgg Cert.Gcn.into
  refine Finset.sum_congr (Finset.filter_congr fun e _ => by rw [v132_eq, v43_at]) (fun e _ => ?_)
  rw [val_main_v130_apply, v127_at, val_main_v129_apply,
    show idx_main_v129 (ix2 e c) = ix2 e 0 by idx2_ext, v128_eq, v39_at]
  rfl

/-- THE SECOND RESULT at `(j, c)` is the reference's second output layer. -/
theorem out1_apply (j : Fin 50000) (c : Fin 64) :
    val_main_v136 (F := Ideal) x0 x1 x2 x3 x6 x7 (ix2 j c)
      = Cert.Gcn.refOut (src2 x1) (dst2 x1) (fun i k => x0 (ix2 i k)) (fun r k => x2 (ix2 r k))
          (fun r => x3 (ix1 r)) (fun r k => x6 (ix2 r k)) (fun r => x7 (ix1 r)) j c := by
  rw [val_main_v136_apply, v133_at, val_main_v135_apply, val_main_v134_apply,
    show idx_main_v134 (idx_main_v135 (ix2 j c)) = ix1 c by idx1_ext]
  rfl

end Out1

end Cert.Gcn.Ref

end
-- ==== Proof.lean ====
/-
  The certificate of a two-layer graph convolution.

  Both programs compute, for every node, the inverse square root `d` of its in-degree (self loop included), a hidden layer
  and two 64-column outputs. The kernel's layer is a dense product scaled by `d` at the source row (inside the
  pallas_call), the rows the edges read summed into their receiving nodes, the sum scaled by `d` at the receiver, plus
  the bias; the reference's layer scales each row read by `d(source) * d(receiver)` before summing. The two agree on
  finite inputs: a receiver's factor is common to all the edges into it and moves out of the finite sum of reals
  (Proof/Law.lean); the kernel's single product with the two output weight blocks stacked is, column by column, the
  reference's two products.

  The three frames are the generated ones (the reference's from its run read back); `preserves` has nothing to state (the
  ideal pass rewrote no operation). For `algebraic`, the kernel's run leaves its results at the end of its chain of
  segment boundaries (Proof/KerRun.lean), read index by index in Proof/KerValue.lean over the region values
  (Proof/KerRegions.lean) and the host stretches (Proof/KerHostFront.lean, KerHostMid.lean, KerHostTail.lean); the
  reference's results are read index by index in Proof/RefValue.lean; Proof/PreDecode.lean reads the precondition.
-/
import proofs.«124000_j5858335392034_2_alg».proof.Defs
import proofs.«124000_j5858335392034_2_alg».proof.Proof.Gen.Kernel
import proofs.«124000_j5858335392034_2_alg».proof.Proof.Gen.Kernel.Skeleton
import proofs.«124000_j5858335392034_2_alg».proof.Proof.Gen.Kernel.Launch
import proofs.«124000_j5858335392034_2_alg».proof.Proof.Gen.Kernel.Points
import proofs.«124000_j5858335392034_2_alg».proof.Proof.Gen.Kernel.Frame
import proofs.«124000_j5858335392034_2_alg».proof.Proof.Gen.KernelIdeal
import proofs.«124000_j5858335392034_2_alg».proof.Proof.Gen.KernelIdeal.Skeleton
import proofs.«124000_j5858335392034_2_alg».proof.Proof.Gen.KernelIdeal.Launch
import proofs.«124000_j5858335392034_2_alg».proof.Proof.Gen.KernelIdeal.Points
import proofs.«124000_j5858335392034_2_alg».proof.Proof.Gen.KernelIdeal.Frame
import proofs.«124000_j5858335392034_2_alg».proof.Proof.Gen.ReferenceIdeal
import proofs.«124000_j5858335392034_2_alg».proof.Proof.Gen.Pre_finite_inputs
import proofs.«124000_j5858335392034_2_alg».proof.Proof.RefReadP
import proofs.«124000_j5858335392034_2_alg».proof.Proof.Law
import proofs.«124000_j5858335392034_2_alg».proof.Proof.PreDecode
import proofs.«124000_j5858335392034_2_alg».proof.Proof.KerRun
import proofs.«124000_j5858335392034_2_alg».proof.Proof.KerValue
import proofs.«124000_j5858335392034_2_alg».proof.Proof.RefValue
import Idealize.ShloMosaic.Adequacy
import Idealize.ShloMosaic.Init

noncomputable section

namespace Cert.Proof

open Idealize.ShloMosaic Idealize.ShloMosaic.ValueIdx Idealize.SL.Sem Cert.Finite

theorem frame_k : Cert.frame_Kernel := fun m ρ _ => Cert.Kernel.Gen.frame m ρ

theorem frame_ki : Cert.frame_KernelIdeal := fun m ρ _ => Cert.KernelIdeal.Gen.frame m ρ

/-- The reference's frame is its run read back, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- At the extended reals, from memories agreeing on the arguments, both programs end with the same two arrays: the
    kernel's results read at `(j, c)` are the stacked-output formula of Proof/Spec.lean plus the bias, the reference's
    are its output formula there, and on the finite inputs the precondition grants the two formulas agree. -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v50),
    fun c => Cert.KernelIdeal.Gen.W9 (F := Ideal) m ρ c (Proc.devRef .tc Cert.KernelIdeal.main_v54),
    Cert.Gcn.Ker.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  all_goals
    obtain ⟨h0, h2, h3, h4, h5, h6, h7⟩ := Cert.Gcn.reals_of_pre _ _ _ _ _ _ _ _ (hpre c)
    obtain ⟨e0, e1, e2, e3, e4, e5, e6, e7⟩ := hagree c
  · rw [Cert.ReferenceIdeal.Read.val_main_v92_eq m' c, e0, e1, e2, e3, e4, e5]
    funext idx
    obtain ⟨j, cc, rfl⟩ : ∃ (j : Fin 50000) (cc : Fin 64), idx = ix2 j cc := ⟨idx 0, idx 1, eq_ix2 idx⟩
    rw [Cert.Gcn.Ref.out0_apply]
    refine Eq.trans ?_ (Cert.Gcn.Ker.out0_apply m ρ c j cc).symm
    exact (Cert.Gcn.kerOut_cat_lo _ _ _ _ _ _ _ (hx := fun i k => h0 (ix2 i k)) (hW1 := fun r k => h2 (ix2 r k))
      (hb1 := fun r => h3 (ix1 r)) (hWa := fun r k => h4 (ix2 r k)) _ j cc).symm
  · rw [Cert.ReferenceIdeal.Read.val_main_v136_eq m' c, e0, e1, e2, e3, e6, e7]
    funext idx
    obtain ⟨j, cc, rfl⟩ : ∃ (j : Fin 50000) (cc : Fin 64), idx = ix2 j cc := ⟨idx 0, idx 1, eq_ix2 idx⟩
    rw [Cert.Gcn.Ref.out1_apply]
    refine Eq.trans ?_ (Cert.Gcn.Ker.out1_apply m ρ c j cc).symm
    exact (Cert.Gcn.kerOut_cat_hi _ _ _ _ _ _ _ (hx := fun i k => h0 (ix2 i k)) (hW1 := fun r k => h2 (ix2 r k))
      (hb1 := fun r => h3 (ix1 r)) (hWb := fun r k => h6 (ix2 r k)) _ j cc).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
